-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v3_0)) (v1 : (c : Dev Cert.KernelIdeal.nD) → Buf (Elt Ideal) ((c.tc : Thread Cert.KernelIdeal.nD Cert.KernelIdeal.τ).loc Cert.KernelIdeal.main_v3_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3_0) = v0 c
          ∧ r.2.mem ((c.tc : Thread Cert.KernelIdeal.nD Cert.KernelIdeal.τ).loc Cert.KernelIdeal.main_v3_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v5) = v0 c
          ∧ r.2.mem ((c.tc : Thread Cert.ReferenceIdeal.nD Cert.ReferenceIdeal.τ).loc Cert.ReferenceIdeal.main_v4) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x2048 : Shape := ⟨2, ![16384, 2048]⟩
abbrev S2048x8192 : Shape := ⟨2, ![2048, 8192]⟩
abbrev S8192x1000 : Shape := ⟨2, ![8192, 1000]⟩
abbrev S_ : Shape := ⟨0, ![]⟩

class Facts : Prop where
  bcast_S_S16384x2048 : S_.BroadcastsInDim S16384x2048 (![] : Fin 0 → Fin S16384x2048.rank)
  reducesTo_S16384x2048_S_d0_1 : S16384x2048.ReducesTo [0, 1] S_
  h_S_ : 0 < S_.numel
  bcast_S_S2048x8192 : S_.BroadcastsInDim S2048x8192 (![] : Fin 0 → Fin S2048x8192.rank)
  reducesTo_S2048x8192_S_d0_1 : S2048x8192.ReducesTo [0, 1] S_
  bcast_S_S8192x1000 : S_.BroadcastsInDim S8192x1000 (![] : Fin 0 → Fin S8192x1000.rank)
  reducesTo_S8192x1000_S_d0_1 : S8192x1000.ReducesTo [0, 1] S_

variable [Facts]

def fn {F : FTy → Type} [FloatOps F] (main_arg0 : FVec F S16384x2048 .f32) (main_arg1 : FVec F S2048x8192 .f32) (main_arg2 : FVec F S8192x1000 .f32) : IVec S_ 1 :=
  let main_v0 : FVec F S16384x2048 .f32 := Host.absf main_arg0
  let main_cst : FVec F S_ .f32 := constant S_ .f32 0x7F800000#32
  let main_v1 : FVec F S16384x2048 .f32 := broadcastInDim S16384x2048 ![] bcast_S_S16384x2048 main_cst
  let main_v2 : IVec S16384x2048 1 := cmpf .olt main_v0 main_v1
  let main_c : IVec S_ 1 := constantI S_ 1 1#1
  let main_v3 : IVec S_ 1 := (fun x v => Host.reduce IntOp.andi x v reducesTo_S16384x2048_S_d0_1 h_S_) main_v2 main_c
  let main_v4 : FVec F S2048x8192 .f32 := Host.absf main_arg1
  let main_cst_0 : FVec F S_ .f32 := constant S_ .f32 0x7F800000#32
  let main_v5 : FVec F S2048x8192 .f32 := broadcastInDim S2048x8192 ![] bcast_S_S2048x8192 main_cst_0
  let main_v6 : IVec S2048x8192 1 := cmpf .olt main_v4 main_v5
  let main_c_1 : IVec S_ 1 := constantI S_ 1 1#1
  let main_v7 : IVec S_ 1 := (fun x v => Host.reduce IntOp.andi x v reducesTo_S2048x8192_S_d0_1 h_S_) main_v6 main_c_1
  let main_v8 : IVec S_ 1 := andi main_v3 main_v7
  let main_v9 : FVec F S8192x1000 .f32 := Host.absf main_arg2
  let main_cst_2 : FVec F S_ .f32 := constant S_ .f32 0x7F800000#32
  let main_v10 : FVec F S8192x1000 .f32 := broadcastInDim S8192x1000 ![] bcast_S_S8192x1000 main_cst_2
  let main_v11 : IVec S8192x1000 1 := cmpf .olt main_v9 main_v10
  let main_c_3 : IVec S_ 1 := constantI S_ 1 1#1
  let main_v12 : IVec S_ 1 := (fun x v => Host.reduce IntOp.andi x v reducesTo_S8192x1000_S_d0_1 h_S_) main_v11 main_c_3
  let main_v13 : IVec S_ 1 := andi main_v8 main_v12
  main_v13
-- ==== Kernel.lean ====
abbrev S16384x2048 : Shape := ⟨2, ![16384, 2048]⟩
abbrev S2048x8192 : Shape := ⟨2, ![2048, 8192]⟩
abbrev S8192x1000 : Shape := ⟨2, ![8192, 1000]⟩
abbrev S16384x1000 : Shape := ⟨2, ![16384, 1000]⟩
abbrev S16384x8192 : Shape := ⟨2, ![16384, 8192]⟩
abbrev S256x256 : Shape := ⟨2, ![256, 256]⟩
abbrev S256x8192 : Shape := ⟨2, ![256, 8192]⟩
abbrev S256x1000 : Shape := ⟨2, ![256, 1000]⟩
abbrev S_ : Shape := ⟨0, ![]⟩

abbrev nBuf : Space → Nat
  | .hbm => 8
  | .vmem => 10
  | .smem => 0
  | _ => 0

abbrev bufTy : (tb : Table) → Fin (tcTables nBuf tb) → BufTy
  | .hbm, ⟨0, _⟩ => ⟨S16384x2048, .f32⟩
  | .hbm, ⟨1, _⟩ => ⟨S2048x8192, .f32⟩
  | .hbm, ⟨2, _⟩ => ⟨S8192x1000, .f32⟩
  | .hbm, ⟨3, _⟩ => ⟨S16384x2048, .bf16⟩
  | .hbm, ⟨4, _⟩ => ⟨S2048x8192, .bf16⟩
  | .hbm, ⟨5, _⟩ => ⟨S8192x1000, .bf16⟩
  | .hbm, ⟨6, _⟩ => ⟨S16384x1000, .f32⟩
  | .hbm, ⟨7, _⟩ => ⟨S16384x8192, .f32⟩
  | .local _ .vmem, ⟨0, _⟩ => ⟨S256x256, .bf16⟩
  | .local _ .vmem, ⟨1, _⟩ => ⟨S256x256, .bf16⟩
  | .local _ .vmem, ⟨2, _⟩ => ⟨S256x8192, .bf16⟩
  | .local _ .vmem, ⟨3, _⟩ => ⟨S256x8192, .bf16⟩
  | .local _ .vmem, ⟨4, _⟩ => ⟨S256x1000, .f32⟩
  | .local _ .vmem, ⟨5, _⟩ => ⟨S256x1000, .f32⟩
  | .local _ .vmem, ⟨6, _⟩ => ⟨S256x8192, .f32⟩
  | .local _ .vmem, ⟨7, _⟩ => ⟨S256x8192, .f32⟩
  | .local _ .vmem, ⟨8, _⟩ => ⟨S256x8192, .f32⟩
  | .local _ .vmem, ⟨9, _⟩ => ⟨S8192x1000, .bf16⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3_0 : Ref sig .tc := ⟨.hbm, 6, rfl⟩
abbrev main_v3_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![64, 8], ![false, false]⟩

def k0_cond2 (i : grid0.Coords) : BitVec 1 :=
  let arg1 : BitVec 32 := BitVec.ofNat 32 (i 1).val
  let c7_i32 : BitVec 32 := 7#32
  let v13 : BitVec 1 := Scalar.cmpi .eq arg1 c7_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S256x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x8192 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S256x1000 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S256x8192 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

class Facts₀ : Prop where
  bitsLt_bf16_f32 : FTy.bits .bf16 < FTy.bits .f32
  inb_S256x8192_S256x8192_0_0 : ∀ a, (![0, 0] : Fin 2 → Nat) a + S256x8192.size a ≤ S256x8192.size a
  h_S256x8192 : 0 < S256x8192.numel
  shapeCasts_S256x8192_S256x8192 : S256x8192.ShapeCasts S256x8192
  inb_S256x256_S256x256_0_0 : ∀ a, (![0, 0] : Fin 2 → Nat) a + S256x256.size a ≤ S256x256.size a
  h_S256x256 : 0 < S256x256.numel
  shapeCasts_S256x256_S256x256 : S256x256.ShapeCasts S256x256
  inb_S8192x1000_S8192x1000_0_0 : ∀ a, (![0, 0] : Fin 2 → Nat) a + S8192x1000.size a ≤ S8192x1000.size a
  h_S8192x1000 : 0 < S8192x1000.numel
  inb_S256x1000_S256x1000_0_0 : ∀ a, (![0, 0] : Fin 2 → Nat) a + S256x1000.size a ≤ S256x1000.size a
  h_S256x1000 : 0 < S256x1000.numel
  dot_S256x256_S256x8192_S256x8192_1_0_0_1_n_n_wf : DotDims.WF S256x256 S256x8192 S256x8192 [1] [0] [0] [1] [] []
  dot_S256x8192_S8192x1000_S256x1000_1_0_0_1_n_n_wf : DotDims.WF S256x8192 S8192x1000 S256x1000 [1] [0] [0] [1] [] []
  hcc0_scratch2 : 8 + S_.numel ≤ 9
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x256.size a ≤ S16384x2048.size a
  hwx0_0 : ∀ i : grid0.Coords, EltTy.bits .bf16 = 32 ∨ (Rect.block (s := S16384x2048) S256x256.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x8192.size a ≤ S2048x8192.size a
  hwx0_1 : ∀ i : grid0.Coords, EltTy.bits .bf16 = 32 ∨ (Rect.block (s := S2048x8192) S256x8192.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_3 i = cc0_transform_3 i'
  hinb0_2 : ∀ (i : grid0.Coords) a, (cc0_transform_3 i a + 1) * S256x1000.size a ≤ S16384x1000.size a
  hwx0_2 : ∀ i : grid0.Coords, EltTy.bits .f32 = 32 ∨ (Rect.block (s := S16384x1000) S256x1000.size (cc0_transform_3 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_4 i = cc0_transform_4 i'
  hinb0_3 : ∀ (i : grid0.Coords) a, (cc0_transform_4 i a + 1) * S256x8192.size a ≤ S16384x8192.size a
  hwx0_3 : ∀ i : grid0.Coords, EltTy.bits .f32 = 32 ∨ (Rect.block (s := S16384x8192) S256x8192.size (cc0_transform_4 i) (hinb0_3 i)).WholeWords (EltTy.packing .f32)

variable [Facts₀]

abbrev cc0_scratch2 : DmaSems sig S_ := SemArray.consecutive 8 S_ hcc0_scratch2
def dot_S256x256_S256x8192_S256x8192_1_0_0_1_n_n : DotDims S256x256 S256x8192 S256x8192 where
  lhsContracting := [1]
  rhsContracting := [0]
  lhsNonContracting := [0]
  rhsNonContracting := [1]
  lhsBatch := []
  rhsBatch := []
  wf := dot_S256x256_S256x8192_S256x8192_1_0_0_1_n_n_wf
def dot_S256x8192_S8192x1000_S256x1000_1_0_0_1_n_n : DotDims S256x8192 S8192x1000 S256x1000 where
  lhsContracting := [1]
  rhsContracting := [0]
  lhsNonContracting := [0]
  rhsNonContracting := [1]
  lhsBatch := []
  rhsBatch := []
  wf := dot_S256x8192_S8192x1000_S256x1000_1_0_0_1_n_n_wf

abbrev win0_0 : Pipeline.Window sig grid0 :=
  Pipeline.Window.ofSpec (Memref.whole main_v0) S256x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S256x8192.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v3_0) S256x1000.size cc0_transform_3 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v3_1) S256x8192.size cc0_transform_4 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun i => !(k0_cond2 i == 1#1) | 3 => fun i => !(k0_cond2 i == 1#1) | ⟨_ + 4, h⟩ => absurd h (Nat.not_lt.2 (Nat.le_add_left _ _))

class Facts : Prop extends Facts₀ where

variable [Facts]
-- ==== ReferenceIdeal.lean ====
abbrev S16384x2048 : Shape := ⟨2, ![16384, 2048]⟩
abbrev S2048x8192 : Shape := ⟨2, ![2048, 8192]⟩
abbrev S8192x1000 : Shape := ⟨2, ![8192, 1000]⟩
abbrev S16384x8192 : Shape := ⟨2, ![16384, 8192]⟩
abbrev S_ : Shape := ⟨0, ![]⟩
abbrev S16384x1000 : Shape := ⟨2, ![16384, 1000]⟩

abbrev nBuf : Space → Nat
  | .hbm => 14
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S2048x8192, .f32⟩
  | .hbm, ⟨2, _⟩ => ⟨S8192x1000, .f32⟩
  | .hbm, ⟨3, _⟩ => ⟨S16384x8192, .f32⟩
  | .hbm, ⟨4, _⟩ => ⟨S_, .f32⟩
  | .hbm, ⟨5, _⟩ => ⟨S16384x8192, .f32⟩
  | .hbm, ⟨6, _⟩ => ⟨S16384x8192, .i1⟩
  | .hbm, ⟨7, _⟩ => ⟨S_, .f32⟩
  | .hbm, ⟨8, _⟩ => ⟨S_, .f32⟩
  | .hbm, ⟨9, _⟩ => ⟨S16384x8192, .f32⟩
  | .hbm, ⟨10, _⟩ => ⟨S16384x8192, .f32⟩
  | .hbm, ⟨11, _⟩ => ⟨S16384x8192, .f32⟩
  | .hbm, ⟨12, _⟩ => ⟨S16384x8192, .f32⟩
  | .hbm, ⟨13, _⟩ => ⟨S16384x1000, .f32⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_cst_1 : Ref sig .tc := ⟨.hbm, 8, rfl⟩
abbrev main_call0_v0 : Ref sig .tc := ⟨.hbm, 9, rfl⟩
abbrev main_call0_v1 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩

abbrev nD : Nat := 1
abbrev τ : Topo := Topo.v7x

variable {F : FTy → Type} [FloatOps F]

class Facts₀ : Prop where
  bcast_S_S16384x8192 : S_.BroadcastsInDim S16384x8192 (![] : Fin 0 → Fin S16384x8192.rank)
  dot_S16384x2048_S2048x8192_S16384x8192_1_0_0_1_n_n_wf : DotDims.WF S16384x2048 S2048x8192 S16384x8192 [1] [0] [0] [1] [] []
  dot_S16384x8192_S8192x1000_S16384x1000_1_0_0_1_n_n_wf : DotDims.WF S16384x8192 S8192x1000 S16384x1000 [1] [0] [0] [1] [] []

variable [Facts₀]

def dot_S16384x2048_S2048x8192_S16384x8192_1_0_0_1_n_n : DotDims S16384x2048 S2048x8192 S16384x8192 where
  lhsContracting := [1]
  rhsContracting := [0]
  lhsNonContracting := [0]
  rhsNonContracting := [1]
  lhsBatch := []
  rhsBatch := []
  wf := dot_S16384x2048_S2048x8192_S16384x8192_1_0_0_1_n_n_wf
def dot_S16384x8192_S8192x1000_S16384x1000_1_0_0_1_n_n : DotDims S16384x8192 S8192x1000 S16384x1000 where
  lhsContracting := [1]
  rhsContracting := [0]
  lhsNonContracting := [0]
  rhsNonContracting := [1]
  lhsBatch := []
  rhsBatch := []
  wf := dot_S16384x8192_S8192x1000_S16384x1000_1_0_0_1_n_n_wf

class Facts : Prop extends Facts₀ where

variable [Facts]
-- ==== Proof.BodyW.Base.lean ====
/-
  The row-tile kernel: a grid of 64 row tiles by 8 steps along the contracted axis. What every step shares:
  the two branch conditions of the body in closed form over the grid (the first step of a tile, `t % 8 = 0`;
  its last, `t % 8 = 7`), where the two result windows are idle, the memrefs the body is called with, the one
  transfer cell the body owns, and the region's entry and exit invariant spelled conjunct by conjunct. The run
  is stated over the algebra that carries the transfers' counters, so the few facts about @main up to the
  region are restated there.
-/
import proofs.«154199_j42442866819345_1_alg».proof.Proof.Gen.Kernel.Skeleton
import proofs.«154199_j42442866819345_1_alg».proof.Proof.Gen.Kernel.Frame
import Idealize.ShloMosaic.Lib.Pipeline.Value

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## @main up to the region, over the algebra with counters -/

theorem hmainD (𝒱₀ : Variants) : Pipeline.HMain (Ix := Unit) (Name := ℕ) (U := Pipeline.UD sig nD τ) (Lvl := ℕ) cfgs 0 defs₀ 𝒱₀ m (main (F := F)) (V m) :=
  Pipeline.hmain_prefix cfgs 0 defs₀ 𝒱₀ m main hostOps0 hostOps0_sub hostOps0_fresh main_chain

/-! ## The two branch conditions, decided over the grid -/

/-- The first conditional of the body: the step along the contracted axis is the first one. -/
abbrev condFirst (i : grid0.Coords) : Prop :=
  Scalar.cmpi .ne (Scalar.extui (Scalar.cmpi .eq (BitVec.ofNat 32 (i 1).val) (0#32 : BitVec 32)) : BitVec 32) (0#32 : BitVec 32) = 1#1
/-- It holds at the points that open a row tile. -/
theorem hcondFirst : ∀ t : Fin cfg0.N, condFirst (grid0.coords t) ↔ t.val % 8 = 0 :=
  (by decide +kernel : ∀ t : Fin grid0.N, condFirst (grid0.coords t) ↔ t.val % 8 = 0)

/-- The second conditional: the step is the last one. -/
abbrev condLast (i : grid0.Coords) : Prop := k0_cond2 i = 1#1
/-- It holds at the points that close a row tile. -/
theorem hcondLast : ∀ t : Fin cfg0.N, condLast (grid0.coords t) ↔ t.val % 8 = 7 :=
  (by decide +kernel : ∀ t : Fin grid0.N, condLast (grid0.coords t) ↔ t.val % 8 = 7)

/-- The result windows are idle exactly at the points that do not close a tile. -/
theorem idle2 : ∀ t : Fin cfg0.N, cfg0.idle 2 (grid0.coords t) = !decide (t.val % 8 = 7) :=
  (by decide +kernel : ∀ t : Fin grid0.N, cfg0.idle 2 (grid0.coords t) = !decide (t.val % 8 = 7))
theorem idle3 : ∀ t : Fin cfg0.N, cfg0.idle 3 (grid0.coords t) = !decide (t.val % 8 = 7) :=
  (by decide +kernel : ∀ t : Fin grid0.N, cfg0.idle 3 (grid0.coords t) = !decide (t.val % 8 = 7))
theorem live0 : ∀ t : Fin cfg0.N, cfg0.idle 0 (grid0.coords t) = false := by decide +kernel
theorem live1 : ∀ t : Fin cfg0.N, cfg0.idle 1 (grid0.coords t) = false := by decide +kernel

/-! ## The memrefs the body is called with -/

abbrev ms0 (t : Fin cfg0.N) : Memref sig .tc .vmem S256x256 .bf16 := win0_0.stage (cfg0.slots t 0)
abbrev hs0 (t : Fin cfg0.N) : (ms0 t).IsWhole := hstage0_0 ((cfg0.slots t 0).cast nbuf0_0)
abbrev ms1 (t : Fin cfg0.N) : Memref sig .tc .vmem S256x8192 .bf16 := win0_1.stage (cfg0.slots t 1)
abbrev hs1 (t : Fin cfg0.N) : (ms1 t).IsWhole := hstage0_1 ((cfg0.slots t 1).cast nbuf0_1)
abbrev ms2 (t : Fin cfg0.N) : Memref sig .tc .vmem S256x1000 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S256x8192 .f32 := win0_3.stage (cfg0.slots t 3)
abbrev hs3 (t : Fin cfg0.N) : (ms3 t).IsWhole := hstage0_3 ((cfg0.slots t 3).cast nbuf0_3)
/-- The running sum of a row tile. -/
abbrev accM : Memref sig .tc .vmem S256x8192 .f32 := Memref.whole cc0_scratch0
/-- The on-chip copy of the class matrix, and the array it is copied from. -/
abbrev chvM : Memref sig .tc .vmem S8192x1000 .bf16 := Memref.whole cc0_scratch1
abbrev hbmM : Memref sig .tc .hbm S8192x1000 .bf16 := Memref.whole main_v2

abbrev HbBuf (c : Dev nD) {sp : Space} {S : Shape} {e : EltTy} (M : Memref sig .tc sp S e) : Type := Buf (Elt F) (M.view.loc (c : Thread nD τ))
abbrev hbPt (c : Dev nD) {sp : Space} {S : Shape} {e : EltTy} (M : Memref sig .tc sp S e) (f : HbBuf (F := F) c M) : sProp 𝕄 :=
  M.view.loc (c : Thread nD τ) ↦{fullShare} f

/-! ## The body's own transfer cell, and the invariant at the region's two ends -/

abbrev osem : Fin 1 → SemLoc sig := fun _ => SemLoc.dma 8
theorem ownSemFacts : Pipeline.OwnSemFacts spec0 osem := by decide
theorem ownSems_eq (c : Dev nD) :
    (Pipeline.ownSems0 (Ix := Unit) (Name := ℕ) (U := Pipeline.UD sig nD τ) (Lvl := ℕ) (Val := Elt F) (τ := τ) osem c : sProp 𝕄)
      = iprop(semVal ((c : Thread nD τ), SemLoc.dma 8) 0) := by
  rw [Pipeline.ownSems0_eq_of_list c osem [0] (by decide) (by decide)]; rfl
def H0 : Finset (Ref sig .tc) := {main_v2}
theorem H0_sub : H0 ⊆ Pipeline.restRefs sig spec0 := by decide
theorem hbmPts_eq (c : Dev nD) :
    (bigSep H0 (fun b => ((c : Thread nD τ).loc b) ↦{fullShare} V m c b) : sProp 𝕄) = iprop(hbPt c hbmM (V m c main_v2)) := by
  rw [BI.bigSep_eq_bigSepL_of_eq [main_v2] (by decide) (by decide)]; rfl

/-- Nothing in flight: both scratch buffers at some contents, the generator register at some state, the cell at
    zero, the class matrix's array as the region found it. -/
theorem PhiD_eq (c : Dev nD) :
    (Pipeline.ΦD osem spec0 H0 (V m) c : sProp 𝕄)
      = iprop(iprop((∃ d, owns (c : Thread nD τ) accM fullShare d) ∗ (∃ d, owns (c : Thread nD τ) chvM fullShare d)) ∗ (∃ r, prngReg c r) ∗ iprop(semVal ((c : Thread nD τ), SemLoc.dma 8) 0) ∗ iprop(hbPt c hbmM (V m c main_v2))) := by
  rw [Pipeline.ΦD_eq, scopedRest0_eq, ownSems_eq, hbmPts_eq]; simp only [accM, chvM, owns_whole]; try rfl

/-! ## The class matrix in flight -/

/-- The offsets of every load and store of the body are zero: each moves a whole block. -/
theorem hz2 : (![0, 0] : Fin 2 → Nat) = fun _ => 0 := by
  funext a; fin_cases a <;> rfl

/-- What the transfer delivers: the class matrix's array as the region found it, read whole. -/
abbrev chvOf (c : Dev nD) (fh : HbBuf (F := F) c hbmM) : Vec F S8192x1000 .bf16 := ReadAs.same.apply (hbmM.view.read (Elt F) fh)

/-- Between the first and the last step of a row tile the class matrix is on its way: the cell's place is taken
    by the transfer's invariant, which holds the on-chip buffer at the delivered matrix and the array lent to it. -/
def flying (c : Dev nD) (arg8 : Memref sig .tc .vmem S8192x1000 .bf16) (fh : HbBuf (F := F) c hbmM) : sProp 𝕄 :=
  iprop(∃ f8 : BufTy.Contents (Elt F) arg8.view.ty,
    Transfers.Flight countersEmb (c : Thread nD τ) (SemLoc.dma 8) default 524288
        iprop((arg8.view.loc (c : Thread nD τ) ↦[arg8.view.set]{fullShare} arg8.view.writes (Elt F) f8 [⟨Rect.whole S8192x1000, chvOf c fh⟩])
          ∗ hbmM.view.loc (c : Thread nD τ) ↦[hbmM.view.set]{fullShare} fh)
      ∗ hbmM.view.loc (c : Thread nD τ) ↦[Finset.univ \ hbmM.view.set]{fullShare} fh)

/-! ## The input windows' blocks, and the frame claim from a frame run -/

theorem before0_of {c : Dev nD} (dat : Dat τ (Elt F) Unit ℕ (Pipeline.UD sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before1_of {c : Dev nD} (dat : Dat τ (Elt F) Unit ℕ (Pipeline.UD sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- The three argument arrays end as launched: none is a window's array, and no host line before the region writes one. -/
theorem frame_ofD (dats : (p : Fin 1) → (c : Dev nD) → Dat τ (Elt F) Unit ℕ (Pipeline.UD sig nD τ) ℕ (cfgs p) c)
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c)⟩) h

end Cert.Kernel.Body

end
-- ==== Proof.BodyW.StepMid.lean ====
/-
  A middle step of a row tile (neither the first nor the last along the contracted axis): the body adds the
  product of the two input blocks to the running sum and touches nothing else. Whatever is in flight passes by.
-/
import proofs.«154199_j42442866819345_1_alg».proof.Proof.BodyW.Base

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

set_option maxHeartbeats 1000000 in
/-- From the two input blocks and the running sum `a0`, the body leaves the running sum at `a0` plus the blocks' product. -/
theorem runMid (c : Dev nD) (i : grid0.Coords) (arg2 : Memref sig .tc .vmem S256x256 .bf16) (harg2 : arg2.IsWhole) (arg3 : Memref sig .tc .vmem S256x8192 .bf16) (harg3 : arg3.IsWhole) (arg5 : Memref sig .tc .vmem S256x1000 .f32) (harg5 : arg5.IsWhole) (arg6 : Memref sig .tc .vmem S256x8192 .f32) (harg6 : arg6.IsWhole) (arg7 : Memref sig .tc .vmem S256x8192 .f32) (harg7 : arg7.IsWhole) (arg8 : Memref sig .tc .vmem S8192x1000 .bf16) (harg8 : arg8.IsWhole)
    (hc0 : ¬condFirst i) (hc1 : ¬condLast i) (x0 : Vec F S256x256 .bf16) (p0 : Vec F S256x8192 .bf16) (a0 : Vec F S256x8192 .f32)
    (K : PUnit → sProp 𝕄) :
    iprop(owns (c : Thread nD τ) arg2 fullShare x0 ∗ owns (c : Thread nD τ) arg3 fullShare p0 ∗ owns (c : Thread nD τ) arg7 fullShare a0
        ∗ (iprop(owns (c : Thread nD τ) arg2 fullShare x0 ∗ owns (c : Thread nD τ) arg3 fullShare p0 ∗ owns (c : Thread nD τ) arg7 fullShare (k0_pay2 a0 x0 p0)) -∗ K ⟨⟩))
      ⊢ wp frame (wpE (defs₀ (F := F)) Variants.none c none) Set.univ (cc0__hdc_kernel i arg2 harg2 arg3 harg3 hbmM (Memref.isWhole_whole _) arg5 harg5 arg6 harg6 arg7 harg7 arg8 harg8 cc0_scratch2) K := by
  simp only [cc0__hdc_kernel_eq_skeleton]; unfold cc0__hdc_kernel_skel
  unfold owns
  iintro ⟨⟨%f0, %hf0, H0⟩, ⟨%f1, %hf1, H1⟩, ⟨%f7, %hf7, H7⟩, Hk⟩
  obtain rfl := harg2.eq_unread hf0
  obtain rfl := harg3.eq_unread hf1
  obtain rfl := harg7.eq_unread hf7
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  iexists _; isplitr; swap; · iexact H7
  ipureintro
  rw [View.read_writes_eq_canon _ _ _ (fun y => ⟨_, List.mem_singleton_self _, View.mem_set_unit_zero hz2 Facts₀.inb_S256x8192_S256x8192_0_0 y⟩), View.canon_unit_zero hz2]
  simp only [View.readAt_eq_ld, harg2.read_unread, harg3.read_unread, harg7.read_unread, View.ld_unit_zero (S := S256x8192) hz2, View.ld_unit_zero (S := S256x256) hz2]

end Cert.Kernel.Body

end
-- ==== Proof.BodyW.StepFirst.lean ====
/-
  The first step of a row tile: the body clears the running sum, starts the copy of the class matrix into its
  on-chip buffer — not waited for here — and adds the first product. It hands back the running sum at the first
  product over zero, and the transfer in flight in the cell's place.
-/
import proofs.«154199_j42442866819345_1_alg».proof.Proof.BodyW.StepMid

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

set_option maxHeartbeats 1000000 in
theorem runFirst (c : Dev nD) (i : grid0.Coords) (arg2 : Memref sig .tc .vmem S256x256 .bf16) (harg2 : arg2.IsWhole) (arg3 : Memref sig .tc .vmem S256x8192 .bf16) (harg3 : arg3.IsWhole) (arg5 : Memref sig .tc .vmem S256x1000 .f32) (harg5 : arg5.IsWhole) (arg6 : Memref sig .tc .vmem S256x8192 .f32) (harg6 : arg6.IsWhole) (arg7 : Memref sig .tc .vmem S256x8192 .f32) (harg7 : arg7.IsWhole) (arg8 : Memref sig .tc .vmem S8192x1000 .bf16) (harg8 : arg8.IsWhole)
    (hc0 : condFirst i) (hc1 : ¬condLast i) (x0 : Vec F S256x256 .bf16) (p0 : Vec F S256x8192 .bf16) (fh : HbBuf (F := F) c hbmM)
    (K : PUnit → sProp 𝕄) :
    iprop(owns (c : Thread nD τ) arg2 fullShare x0 ∗ owns (c : Thread nD τ) arg3 fullShare p0 ∗ (∃ d, owns (c : Thread nD τ) arg7 fullShare d) ∗ (∃ d, owns (c : Thread nD τ) arg8 fullShare d)
        ∗ semVal ((c : Thread nD τ), SemLoc.dma 8) 0 ∗ hbPt c hbmM fh
        ∗ (iprop(owns (c : Thread nD τ) arg2 fullShare x0 ∗ owns (c : Thread nD τ) arg3 fullShare p0 ∗ owns (c : Thread nD τ) arg7 fullShare (k0_pay2 (k0_pay1 (F := F)) x0 p0)
            ∗ flying c arg8 fh) -∗ K ⟨⟩))
      ⊢ wp frame (wpE (defs₀ (F := F)) Variants.none c none) Set.univ (cc0__hdc_kernel i arg2 harg2 arg3 harg3 hbmM (Memref.isWhole_whole _) arg5 harg5 arg6 harg6 arg7 harg7 arg8 harg8 cc0_scratch2) K := by
  simp only [cc0__hdc_kernel_eq_skeleton]; unfold cc0__hdc_kernel_skel
  unfold owns
  iintro ⟨⟨%f0, %hf0, H0⟩, ⟨%f1, %hf1, H1⟩, ⟨%d7, %f7, -, H7⟩, ⟨%d8, %f8, -, H8⟩, Hq, Hh, Hk⟩
  obtain rfl := harg2.eq_unread hf0
  obtain rfl := harg3.eq_unread hf1
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H7]
  · iexists _; isplitr; swap; · iexact H7
    ipureintro
    rw [View.read_writes_eq_canon _ _ _ (fun y => ⟨_, List.mem_cons_self, View.mem_set_unit_zero hz2 Facts₀.inb_S256x8192_S256x8192_0_0 y⟩), View.canon_cons_unit_zero hz2]
    sl_unfold_run_names
    rw [View.readCov_unit_zero _ hz2]
    simp only [View.readAt_eq_ld, harg2.read_unread, harg3.read_unread, View.ld_unit_zero (S := S256x8192) hz2, View.ld_unit_zero (S := S256x256) hz2]
  unfold flying
  iexists _
  isplitl [Hq]; · iexact Hq
  iexact Hh

end Cert.Kernel.Body

end
-- ==== Proof.BodyW.StepLast.lean ====
/-
  The last step of a row tile: the body adds the last product to the running sum, waits for the class matrix —
  in flight since the tile's first step —, takes the signs of the finished sum (+1 where it is at least zero,
  -1 elsewhere), stores them as one result block, and stores their product with the delivered matrix as the
  other. The cell comes back at zero and the matrix's array whole.
-/
import proofs.«154199_j42442866819345_1_alg».proof.Proof.BodyW.StepFirst

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-- A whole-block load of a buffer into which one delivery wrote every element reads the delivery. -/
theorem readCov_whole_unit_zero {Val : EltTy → Type} [∀ e, Nonempty (Val e)] {sig' : RefSig} {κ : Kind} {sp : Space} {S : Shape} {e : EltTy}
    (v : View sig' κ sp S e) {off : Fin S.rank → Nat} (h : off = fun _ => 0)
    (inb : ∀ a, off a + S.size a ≤ S.size a) (w : S.Idx → Val e) :
    v.readCov [(⟨Rect.whole S, w⟩ : View.Piece Val S e)] (Rect.unit off S.size inb).toLoadRect = w := by
  subst h
  exact View.readCov_unit_zero v rfl inb w

set_option maxHeartbeats 2000000 in
theorem runLast (c : Dev nD) (i : grid0.Coords) (arg2 : Memref sig .tc .vmem S256x256 .bf16) (harg2 : arg2.IsWhole) (arg3 : Memref sig .tc .vmem S256x8192 .bf16) (harg3 : arg3.IsWhole) (arg5 : Memref sig .tc .vmem S256x1000 .f32) (harg5 : arg5.IsWhole) (arg6 : Memref sig .tc .vmem S256x8192 .f32) (harg6 : arg6.IsWhole) (arg7 : Memref sig .tc .vmem S256x8192 .f32) (harg7 : arg7.IsWhole) (arg8 : Memref sig .tc .vmem S8192x1000 .bf16) (harg8 : arg8.IsWhole)
    (hc0 : ¬condFirst i) (hc1 : condLast i) (x0 : Vec F S256x256 .bf16) (p0 : Vec F S256x8192 .bf16) (a0 : Vec F S256x8192 .f32) (fh : HbBuf (F := F) c hbmM)
    (W : Waits sig Unit) (K : PUnit → sProp 𝕄) :
    iprop(owns (c : Thread nD τ) arg2 fullShare x0 ∗ owns (c : Thread nD τ) arg3 fullShare p0 ∗ owns (c : Thread nD τ) arg7 fullShare a0
        ∗ (∃ d, owns (c : Thread nD τ) arg5 fullShare d) ∗ (∃ d, owns (c : Thread nD τ) arg6 fullShare d)
        ∗ flying c arg8 fh ∗ owes (c : Thread nD τ) 0 W
        ∗ (iprop(owns (c : Thread nD τ) arg2 fullShare x0 ∗ owns (c : Thread nD τ) arg3 fullShare p0 ∗ owns (c : Thread nD τ) arg7 fullShare (k0_pay2 a0 x0 p0)
            ∗ owns (c : Thread nD τ) arg5 fullShare (k0_pay4 (k0_pay2 a0 x0 p0) (chvOf c fh))
            ∗ owns (c : Thread nD τ) arg6 fullShare (k0_pay3 (k0_pay2 a0 x0 p0))
            ∗ (∃ d, owns (c : Thread nD τ) arg8 fullShare d) ∗ semVal ((c : Thread nD τ), SemLoc.dma 8) 0 ∗ hbPt c hbmM fh
            ∗ (∃ W', owes (c : Thread nD τ) 0 W')) -∗ K ⟨⟩))
      ⊢ wp frame (wpE (defs₀ (F := F)) Variants.none c none) Set.univ (cc0__hdc_kernel i arg2 harg2 arg3 harg3 hbmM (Memref.isWhole_whole _) arg5 harg5 arg6 harg6 arg7 harg7 arg8 harg8 cc0_scratch2) K := by
  simp only [cc0__hdc_kernel_eq_skeleton]; unfold cc0__hdc_kernel_skel
  unfold owns
  unfold flying
  iintro ⟨⟨%f0, %hf0, H0⟩, ⟨%f1, %hf1, H1⟩, ⟨%f7, %hf7, H7⟩, ⟨%d5, %f5, -, H5⟩, ⟨%d6, %f6, -, H6⟩, ⟨%f8, HF, Hh⟩, HW, Hk⟩
  obtain rfl := harg2.eq_unread hf0
  obtain rfl := harg3.eq_unread hf1
  obtain rfl := harg7.eq_unread hf7
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H7]
  · iexists _; isplitr; swap; · iexact H7
    ipureintro
    sl_unfold_run_names
    rw [View.read_writes_eq_canon _ _ _ (fun y => ⟨_, List.mem_singleton_self _, View.mem_set_unit_zero hz2 Facts₀.inb_S256x8192_S256x8192_0_0 y⟩), View.canon_unit_zero hz2]
    simp only [View.readAt_eq_ld, harg2.read_unread, harg3.read_unread, harg7.read_unread, View.ld_unit_zero (S := S256x8192) hz2, View.ld_unit_zero (S := S256x256) hz2]
  isplitl [H5]
  · iexists _; isplitr; swap; · iexact H5
    ipureintro
    rw [View.read_writes_eq_canon _ _ _ (fun y => ⟨_, List.mem_singleton_self _, View.mem_set_unit_zero hz2 Facts₀.inb_S256x1000_S256x1000_0_0 y⟩), View.canon_unit_zero hz2]
    sl_unfold_run_names
    rw [View.readCov_unit_zero _ hz2, readCov_whole_unit_zero _ hz2]
    simp only [View.readAt_eq_ld, harg2.read_unread, harg3.read_unread, harg7.read_unread, View.ld_unit_zero (S := S256x8192) hz2, View.ld_unit_zero (S := S256x256) hz2]
  isplitl [H6]
  · iexists _; isplitr; swap; · iexact H6
    ipureintro
    rw [View.read_writes_eq_canon _ _ _ (fun y => ⟨_, List.mem_singleton_self _, View.mem_set_unit_zero hz2 Facts₀.inb_S256x8192_S256x8192_0_0 y⟩), View.canon_unit_zero hz2]
    sl_unfold_run_names
    rw [View.readCov_unit_zero _ hz2]
    simp only [View.readAt_eq_ld, harg2.read_unread, harg3.read_unread, harg7.read_unread, View.ld_unit_zero (S := S256x8192) hz2, View.ld_unit_zero (S := S256x256) hz2]
  isplitl [HF_dst]
  · iexists _, _; isplitr; swap; · iexact HF_dst
    ipureintro; rfl
  isplitl [HF]; · iexact HF
  isplitl [Hh]; · iexact Hh
  iexists _; iexact HW

end Cert.Kernel.Body

end
-- ==== Proof.BodyW.Data.lean ====
/-
  The proof data of the region. Along a row tile the running sum after a step is the step's product added to
  the sum before it, the first step starting from zero: `accOut`, by recursion on the point. Between points the
  invariant is: at a point that opens a tile nothing is in flight and the running sum is forgotten; at any other
  point the running sum is the one the point before left and the class matrix is in flight. The two result
  windows are stored at a tile's last step only: the signs of the finished sum, and their product with the
  delivered class matrix.
-/
import proofs.«154199_j42442866819345_1_alg».proof.Proof.BodyW.StepLast

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## The running sum -/

theorem N_pos : 0 < cfg0.N := by decide

/-- The point numbered `n` (numbers read modulo the grid's size, so that the recursion below is total). -/
def tOf (n : Nat) : Fin cfg0.N := ⟨n % cfg0.N, Nat.mod_lt n N_pos⟩
theorem tOf_val (t : Fin cfg0.N) : tOf t.val = t := Fin.ext (Nat.mod_eq_of_lt t.isLt)

/-- The running sum after point `n`: the point's product added to zero at the first step of a tile, to the
    sum the point before left at the others. -/
def accOut (c : Dev nD) : Nat → Vec F S256x8192 .f32
  | 0 => k0_pay2 (k0_pay1 (F := F)) (iblk m c 0 (tOf 0)) (iblk m c 1 (tOf 0))
  | n + 1 => k0_pay2 (if (n + 1) % 8 = 0 then k0_pay1 (F := F) else accOut c n) (iblk m c 0 (tOf (n + 1))) (iblk m c 1 (tOf (n + 1)))

theorem accOut_first (c : Dev nD) (n : Nat) (h : n % 8 = 0) :
    accOut m c n = k0_pay2 (k0_pay1 (F := F)) (iblk m c 0 (tOf n)) (iblk m c 1 (tOf n)) := by
  cases n with
  | zero => rfl
  | succ k => simp only [accOut, if_pos h]

theorem accOut_next (c : Dev nD) (n : Nat) (h : n % 8 ≠ 0) :
    accOut m c n = k0_pay2 (accOut m c (n - 1)) (iblk m c 0 (tOf n)) (iblk m c 1 (tOf n)) := by
  cases n with
  | zero => exact absurd rfl h
  | succ k => simp only [accOut, if_neg h, Nat.add_sub_cancel]

/-! ## The invariant between points, and the proof data -/

/-- Before point `t` (after point `t - 1`). -/
def PhiAt (c : Dev nD) (t : Fin (cfg0.N + 1)) : sProp 𝕄 :=
  if t.val % 8 = 0 then Pipeline.ΦD osem spec0 H0 (V m) c
  else iprop(owns (c : Thread nD τ) accM fullShare (accOut m c (t.val - 1)) ∗ (∃ r, prngReg c r) ∗ flying c chvM (V m c main_v2))

def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => k0_pay4 (accOut m c t.val) (chvOf c (V m c main_v2))
    | ⟨3, _⟩ => k0_pay3 (accOut m c t.val)
  Φ t := PhiAt m c t
  q _ := fullShare
  owed _ := 0

theorem A_eq (c : Dev nD) (w : Fin cfg0.W) : (dats m 0 c).A w = V m c (Pipeline.arrRef spec0 w) := by
  dsimp only [dats]
theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = k0_pay4 (accOut m c t.val) (chvOf c (V m c main_v2)) := by dsimp only [dats]
theorem after3 (c : Dev nD) (t : Fin cfg0.N) : (dats m 0 c).after 3 t = k0_pay3 (accOut m c t.val) := by dsimp only [dats]

theorem before0 (c : Dev nD) (t : Fin cfg0.N) (d) : (dats m 0 c).before 0 t d = iblk m c 0 t :=
  before0_of m (dats m 0 c) (A_eq m c 0) (after0 m c) t d
theorem before1 (c : Dev nD) (t : Fin cfg0.N) (d) : (dats m 0 c).before 1 t d = iblk m c 1 t :=
  before1_of m (dats m 0 c) (A_eq m c 1) (after1 m c) t d

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d)))

def bodyPost (c : Dev nD) (t : Fin cfg0.N) : sProp 𝕄 :=
  iprop((dats m 0 c).Φ t.succ ∗ (dats m 0 c).owesAt () t.succ
    ∗ (dats m 0 c).leavesExact 0 t ∗ (dats m 0 c).leavesExact 1 t
    ∗ (dats m 0 c).leavesExact 2 t ∗ (dats m 0 c).leavesExact 3 t)

theorem PhiAt_home (c : Dev nD) (t : Fin (cfg0.N + 1)) (h : t.val % 8 = 0) :
    PhiAt m c t = Pipeline.ΦD osem spec0 H0 (V m) c := if_pos h
theorem PhiAt_fly (c : Dev nD) (t : Fin (cfg0.N + 1)) (h : ¬ t.val % 8 = 0) :
    PhiAt m c t = iprop(owns (c : Thread nD τ) accM fullShare (accOut m c (t.val - 1)) ∗ (∃ r, prngReg c r) ∗ flying c chvM (V m c main_v2)) := if_neg h

theorem idle2_at (t : Fin cfg0.N) (h : t.val % 8 = 7) : cfg0.idle 2 (grid0.coords t) = false := by rw [idle2 t]; simp [h]
theorem idle3_at (t : Fin cfg0.N) (h : t.val % 8 = 7) : cfg0.idle 3 (grid0.coords t) = false := by rw [idle3 t]; simp [h]
theorem idle2_off (t : Fin cfg0.N) (h : ¬ t.val % 8 = 7) : cfg0.idle 2 (grid0.coords t) = true := by rw [idle2 t]; simp [h]
theorem idle3_off (t : Fin cfg0.N) (h : ¬ t.val % 8 = 7) : cfg0.idle 3 (grid0.coords t) = true := by rw [idle3 t]; simp [h]
theorem flush2_off (t : Fin cfg0.N) (h : ¬ t.val % 8 = 7) : (cfg0.win 2).flush t = false :=
  Bool.eq_false_iff.mpr fun hf => h ((flush0_2 t).mp hf)
theorem flush3_off (t : Fin cfg0.N) (h : ¬ t.val % 8 = 7) : (cfg0.win 3).flush t = false :=
  Bool.eq_false_iff.mpr fun hf => h ((flush0_3 t).mp hf)

set_option maxHeartbeats 4000000 in
/-- The body at any point, by the point's place in its row tile. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1]
  rw [show (dats m 0 c).leavesExact 0 t = owns (c : Thread nD τ) (ms0 t) fullShare (iblk m c 0 t) from by
        unfold Dat.leavesExact; rw [live0 t, after0],
      show (dats m 0 c).leavesExact 1 t = owns (c : Thread nD τ) (ms1 t) fullShare (iblk m c 1 t) from by
        unfold Dat.leavesExact; rw [live1 t, after1]]
  rw [show (dats m 0 c).Φ t.castSucc = PhiAt m c t.castSucc from rfl, show (dats m 0 c).Φ t.succ = PhiAt m c t.succ from rfl]
  have ec : t.castSucc.val = t.val := rfl
  have es : t.succ.val - 1 = t.val := by rw [Fin.val_succ]; omega
  by_cases h0 : t.val % 8 = 0
  · -- the first step of a tile
    have h7 : ¬ t.val % 8 = 7 := by omega
    have hs : ¬ t.succ.val % 8 = 0 := by rw [Fin.val_succ]; omega
    rw [(dats m 0 c).leavesExact_idle 2 t (idle2_off t h7) (flush2_off t h7), (dats m 0 c).leavesExact_idle 3 t (idle3_off t h7) (flush3_off t h7),
      show (dats m 0 c).owesAt () t.succ = (dats m 0 c).owesAt () t.castSucc from rfl,
      PhiAt_home m c t.castSucc h0, PhiAt_fly m c t.succ hs, PhiD_eq, es, accOut_first m c t.val h0, tOf_val]
    iintro ⟨⟨⟨HS0, HS1⟩, Hg, Hq, Hh⟩, Ho, ⟨%d0, H0⟩, ⟨%d1, H1⟩, H2, H3⟩
    iapply (runFirst c (grid0.coords t) (ms0 t) (hs0 t) (ms1 t) (hs1 t) (ms2 t) (hs2 t) (ms3 t) (hs3 t) accM (Memref.isWhole_whole _) chvM (Memref.isWhole_whole _)
      ((hcondFirst t).mpr h0) (fun h => h7 ((hcondLast t).mp h)) (iblk m c 0 t) (iblk m c 1 t) (V m c main_v2) _)
    isplitl [H0]; · iexact H0
    isplitl [H1]; · iexact H1
    isplitl [HS0]; · iexact HS0
    isplitl [HS1]; · iexact HS1
    isplitl [Hq]; · iexact Hq
    isplitl [Hh]; · iexact Hh
    iintro ⟨H0, H1, HA, HF⟩
    isplitl [HA Hg HF]
    · isplitl [HA]; · iexact HA
      isplitl [Hg]; · iexact Hg
      iexact HF
    isplitl [Ho]; · iexact Ho
    isplitl [H0]; · iexact H0
    isplitl [H1]; · iexact H1
    isplitl [H2]; · iexact H2
    iexact H3
  · by_cases h7 : t.val % 8 = 7
    · -- the last step of a tile
      have hs : t.succ.val % 8 = 0 := by rw [Fin.val_succ]; omega
      rw [show (dats m 0 c).leavesExact 2 t = owns (c : Thread nD τ) (ms2 t) fullShare (k0_pay4 (accOut m c t.val) (chvOf c (V m c main_v2))) from by
            unfold Dat.leavesExact; rw [idle2_at t h7, after2],
          show (dats m 0 c).leavesExact 3 t = owns (c : Thread nD τ) (ms3 t) fullShare (k0_pay3 (accOut m c t.val)) from by
            unfold Dat.leavesExact; rw [idle3_at t h7, after3],
        PhiAt_fly m c t.castSucc h0, PhiAt_home m c t.succ hs, PhiD_eq, ec, accOut_next m c t.val h0, tOf_val]
      unfold Dat.owesAt Pipeline.owesWithin
      rw [show (dats m 0 c).owed t.castSucc = 0 from rfl, show (dats m 0 c).owed t.succ = 0 from rfl]
      iintro ⟨⟨HA, Hg, HF⟩, ⟨%W, -, HW⟩, ⟨%d0, H0⟩, ⟨%d1, H1⟩, ⟨%d2, H2⟩, ⟨%d3, H3⟩⟩
      iapply (runLast c (grid0.coords t) (ms0 t) (hs0 t) (ms1 t) (hs1 t) (ms2 t) (hs2 t) (ms3 t) (hs3 t) accM (Memref.isWhole_whole _) chvM (Memref.isWhole_whole _)
        (fun h => h0 ((hcondFirst t).mp h)) ((hcondLast t).mpr h7) (iblk m c 0 t) (iblk m c 1 t) (accOut m c (t.val - 1)) (V m c main_v2) W _)
      isplitl [H0]; · iexact H0
      isplitl [H1]; · iexact H1
      isplitl [HA]; · iexact HA
      isplitl [H2]; · iexists _; iexact H2
      isplitl [H3]; · iexists _; iexact H3
      isplitl [HF]; · iexact HF
      isplitl [HW]; · iexact HW
      iintro ⟨H0, H1, HA, H2, H3, HS1, Hq, Hh, ⟨%W', HW'⟩⟩
      isplitl [HA HS1 Hg Hq Hh]
      · isplitl [HA HS1]
        · isplitl [HA]; · iexists _; iexact HA
          iexact HS1
        isplitl [Hg]; · iexact Hg
        isplitl [Hq]; · iexact Hq
        iexact Hh
      isplitl [HW']
      · iexists W'; isplitr; · ipureintro; exact fun _ _ => Or.inl trivial
        iexact HW'
      isplitl [H0]; · iexact H0
      isplitl [H1]; · iexact H1
      isplitl [H2]; · iexact H2
      iexact H3
    · -- a middle step
      have hs : ¬ t.succ.val % 8 = 0 := by rw [Fin.val_succ]; omega
      rw [(dats m 0 c).leavesExact_idle 2 t (idle2_off t h7) (flush2_off t h7), (dats m 0 c).leavesExact_idle 3 t (idle3_off t h7) (flush3_off t h7),
        show (dats m 0 c).owesAt () t.succ = (dats m 0 c).owesAt () t.castSucc from rfl,
        PhiAt_fly m c t.castSucc h0, PhiAt_fly m c t.succ hs, es, ec, accOut_next m c t.val h0, tOf_val]
      iintro ⟨⟨HA, Hg, HF⟩, Ho, ⟨%d0, H0⟩, ⟨%d1, H1⟩, H2, H3⟩
      iapply (runMid c (grid0.coords t) (ms0 t) (hs0 t) (ms1 t) (hs1 t) (ms2 t) (hs2 t) (ms3 t) (hs3 t) accM (Memref.isWhole_whole _) chvM (Memref.isWhole_whole _)
        (fun h => h0 ((hcondFirst t).mp h)) (fun h => h7 ((hcondLast t).mp h)) (iblk m c 0 t) (iblk m c 1 t) (accOut m c (t.val - 1)) _)
      isplitl [H0]; · iexact H0
      isplitl [H1]; · iexact H1
      isplitl [HA]; · iexact HA
      iintro ⟨H0, H1, HA⟩
      isplitl [HA Hg HF]
      · isplitl [HA]; · iexact HA
        isplitl [Hg]; · iexact Hg
        iexact HF
      isplitl [Ho]; · iexact Ho
      isplitl [H0]; · iexact H0
      isplitl [H1]; · iexact H1
      isplitl [H2]; · iexact H2
      iexact H3

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- Every weakly fair execution of @main terminates without a fault; each result array ends at what the proof
    data's blocks written back make of it, every other array as the region found it. -/
theorem run_main : θ_run defs (onTc (τ := τ) (main (F := F))) (s₀ m ρ) (Pipeline.FramePost cfgs (dats m) 0 (V m)) :=
  Pipeline.θ_run_frame_dma cfgs (dats m) (0 : Fin 1) launch0 osem defs₀ Variants.none ownSemFacts H0 H0_sub m ρ main
    (hbody := fun c => (body_obligation m c).loose) (hshare := fun c => (dats m 0 c).share_full fun _ => rfl)
    (howed := fun _ _ => rfl) (V := V m) (hmain := hmainD m Variants.none) (hA := A_eq m)
    (hin := fun c => by rw [show (dats m 0 c).Φ 0 = PhiAt m c 0 from rfl, PhiAt_home m c 0 rfl])
    (hout := fun c => by rw [show (dats m 0 c).Φ (Fin.last cfg0.N) = PhiAt m c (Fin.last cfg0.N) from rfl, PhiAt_home m c (Fin.last cfg0.N) (by decide)])

/-- The frame: the run ends, nothing faults, and the three argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_ofD m ρ (dats m) (run_main m ρ)

end Cert.Kernel.Body

end
-- ==== Proof.Body.Base.lean ====
/-
  The row-tile kernel: a grid of 64 row tiles by 8 steps along the contracted axis. What every step shares:
  the two branch conditions of the body in closed form over the grid (the first step of a tile, `t % 8 = 0`;
  its last, `t % 8 = 7`), where the two result windows are idle, the memrefs the body is called with, the one
  transfer cell the body owns, and the region's entry and exit invariant spelled conjunct by conjunct. The run
  is stated over the algebra that carries the transfers' counters, so the few facts about @main up to the
  region are restated there.
-/
import proofs.«154199_j42442866819345_1_alg».proof.Proof.Gen.KernelIdeal.Skeleton
import proofs.«154199_j42442866819345_1_alg».proof.Proof.Gen.KernelIdeal.Frame
import Idealize.ShloMosaic.Lib.Pipeline.Value

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## @main up to the region, over the algebra with counters -/

theorem hmainD (𝒱₀ : Variants) : Pipeline.HMain (Ix := Unit) (Name := ℕ) (U := Pipeline.UD sig nD τ) (Lvl := ℕ) cfgs 0 defs₀ 𝒱₀ m (main (F := F)) (V m) :=
  Pipeline.hmain_prefix cfgs 0 defs₀ 𝒱₀ m main hostOps0 hostOps0_sub hostOps0_fresh main_chain

/-! ## The two branch conditions, decided over the grid -/

/-- The first conditional of the body: the step along the contracted axis is the first one. -/
abbrev condFirst (i : grid0.Coords) : Prop :=
  Scalar.cmpi .ne (Scalar.extui (Scalar.cmpi .eq (BitVec.ofNat 32 (i 1).val) (0#32 : BitVec 32)) : BitVec 32) (0#32 : BitVec 32) = 1#1
/-- It holds at the points that open a row tile. -/
theorem hcondFirst : ∀ t : Fin cfg0.N, condFirst (grid0.coords t) ↔ t.val % 8 = 0 :=
  (by decide +kernel : ∀ t : Fin grid0.N, condFirst (grid0.coords t) ↔ t.val % 8 = 0)

/-- The second conditional: the step is the last one. -/
abbrev condLast (i : grid0.Coords) : Prop := k0_cond2 i = 1#1
/-- It holds at the points that close a row tile. -/
theorem hcondLast : ∀ t : Fin cfg0.N, condLast (grid0.coords t) ↔ t.val % 8 = 7 :=
  (by decide +kernel : ∀ t : Fin grid0.N, condLast (grid0.coords t) ↔ t.val % 8 = 7)

/-- The result windows are idle exactly at the points that do not close a tile. -/
theorem idle2 : ∀ t : Fin cfg0.N, cfg0.idle 2 (grid0.coords t) = !decide (t.val % 8 = 7) :=
  (by decide +kernel : ∀ t : Fin grid0.N, cfg0.idle 2 (grid0.coords t) = !decide (t.val % 8 = 7))
theorem idle3 : ∀ t : Fin cfg0.N, cfg0.idle 3 (grid0.coords t) = !decide (t.val % 8 = 7) :=
  (by decide +kernel : ∀ t : Fin grid0.N, cfg0.idle 3 (grid0.coords t) = !decide (t.val % 8 = 7))
theorem live0 : ∀ t : Fin cfg0.N, cfg0.idle 0 (grid0.coords t) = false := by decide +kernel
theorem live1 : ∀ t : Fin cfg0.N, cfg0.idle 1 (grid0.coords t) = false := by decide +kernel

/-! ## The memrefs the body is called with -/

abbrev ms0 (t : Fin cfg0.N) : Memref sig .tc .vmem S256x256 .bf16 := win0_0.stage (cfg0.slots t 0)
abbrev hs0 (t : Fin cfg0.N) : (ms0 t).IsWhole := hstage0_0 ((cfg0.slots t 0).cast nbuf0_0)
abbrev ms1 (t : Fin cfg0.N) : Memref sig .tc .vmem S256x8192 .bf16 := win0_1.stage (cfg0.slots t 1)
abbrev hs1 (t : Fin cfg0.N) : (ms1 t).IsWhole := hstage0_1 ((cfg0.slots t 1).cast nbuf0_1)
abbrev ms2 (t : Fin cfg0.N) : Memref sig .tc .vmem S256x1000 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S256x8192 .f32 := win0_3.stage (cfg0.slots t 3)
abbrev hs3 (t : Fin cfg0.N) : (ms3 t).IsWhole := hstage0_3 ((cfg0.slots t 3).cast nbuf0_3)
/-- The running sum of a row tile. -/
abbrev accM : Memref sig .tc .vmem S256x8192 .f32 := Memref.whole cc0_scratch0
/-- The on-chip copy of the class matrix, and the array it is copied from. -/
abbrev chvM : Memref sig .tc .vmem S8192x1000 .bf16 := Memref.whole cc0_scratch1
abbrev hbmM : Memref sig .tc .hbm S8192x1000 .bf16 := Memref.whole main_v2

abbrev HbBuf (c : Dev nD) {sp : Space} {S : Shape} {e : EltTy} (M : Memref sig .tc sp S e) : Type := Buf (Elt F) (M.view.loc (c : Thread nD τ))
abbrev hbPt (c : Dev nD) {sp : Space} {S : Shape} {e : EltTy} (M : Memref sig .tc sp S e) (f : HbBuf (F := F) c M) : sProp 𝕄 :=
  M.view.loc (c : Thread nD τ) ↦{fullShare} f

/-! ## The body's own transfer cell, and the invariant at the region's two ends -/

abbrev osem : Fin 1 → SemLoc sig := fun _ => SemLoc.dma 8
theorem ownSemFacts : Pipeline.OwnSemFacts spec0 osem := by decide
theorem ownSems_eq (c : Dev nD) :
    (Pipeline.ownSems0 (Ix := Unit) (Name := ℕ) (U := Pipeline.UD sig nD τ) (Lvl := ℕ) (Val := Elt F) (τ := τ) osem c : sProp 𝕄)
      = iprop(semVal ((c : Thread nD τ), SemLoc.dma 8) 0) := by
  rw [Pipeline.ownSems0_eq_of_list c osem [0] (by decide) (by decide)]; rfl
def H0 : Finset (Ref sig .tc) := {main_v2}
theorem H0_sub : H0 ⊆ Pipeline.restRefs sig spec0 := by decide
theorem hbmPts_eq (c : Dev nD) :
    (bigSep H0 (fun b => ((c : Thread nD τ).loc b) ↦{fullShare} V m c b) : sProp 𝕄) = iprop(hbPt c hbmM (V m c main_v2)) := by
  rw [BI.bigSep_eq_bigSepL_of_eq [main_v2] (by decide) (by decide)]; rfl

/-- Nothing in flight: both scratch buffers at some contents, the generator register at some state, the cell at
    zero, the class matrix's array as the region found it. -/
theorem PhiD_eq (c : Dev nD) :
    (Pipeline.ΦD osem spec0 H0 (V m) c : sProp 𝕄)
      = iprop(iprop((∃ d, owns (c : Thread nD τ) accM fullShare d) ∗ (∃ d, owns (c : Thread nD τ) chvM fullShare d)) ∗ (∃ r, prngReg c r) ∗ iprop(semVal ((c : Thread nD τ), SemLoc.dma 8) 0) ∗ iprop(hbPt c hbmM (V m c main_v2))) := by
  rw [Pipeline.ΦD_eq, scopedRest0_eq, ownSems_eq, hbmPts_eq]; simp only [accM, chvM, owns_whole]; try rfl

/-! ## The class matrix in flight -/

/-- The offsets of every load and store of the body are zero: each moves a whole block. -/
theorem hz2 : (![0, 0] : Fin 2 → Nat) = fun _ => 0 := by
  funext a; fin_cases a <;> rfl

/-- What the transfer delivers: the class matrix's array as the region found it, read whole. -/
abbrev chvOf (c : Dev nD) (fh : HbBuf (F := F) c hbmM) : Vec F S8192x1000 .bf16 := ReadAs.same.apply (hbmM.view.read (Elt F) fh)

/-- Between the first and the last step of a row tile the class matrix is on its way: the cell's place is taken
    by the transfer's invariant, which holds the on-chip buffer at the delivered matrix and the array lent to it. -/
def flying (c : Dev nD) (arg8 : Memref sig .tc .vmem S8192x1000 .bf16) (fh : HbBuf (F := F) c hbmM) : sProp 𝕄 :=
  iprop(∃ f8 : BufTy.Contents (Elt F) arg8.view.ty,
    Transfers.Flight countersEmb (c : Thread nD τ) (SemLoc.dma 8) default 524288
        iprop((arg8.view.loc (c : Thread nD τ) ↦[arg8.view.set]{fullShare} arg8.view.writes (Elt F) f8 [⟨Rect.whole S8192x1000, chvOf c fh⟩])
          ∗ hbmM.view.loc (c : Thread nD τ) ↦[hbmM.view.set]{fullShare} fh)
      ∗ hbmM.view.loc (c : Thread nD τ) ↦[Finset.univ \ hbmM.view.set]{fullShare} fh)

/-! ## The input windows' blocks, and the frame claim from a frame run -/

theorem before0_of {c : Dev nD} (dat : Dat τ (Elt F) Unit ℕ (Pipeline.UD sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before1_of {c : Dev nD} (dat : Dat τ (Elt F) Unit ℕ (Pipeline.UD sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- The three argument arrays end as launched: none is a window's array, and no host line before the region writes one. -/
theorem frame_ofD (dats : (p : Fin 1) → (c : Dev nD) → Dat τ (Elt F) Unit ℕ (Pipeline.UD sig nD τ) ℕ (cfgs p) c)
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c)⟩) h

end Cert.KernelIdeal.Body

end
-- ==== Proof.Body.StepMid.lean ====
/-
  A middle step of a row tile (neither the first nor the last along the contracted axis): the body adds the
  product of the two input blocks to the running sum and touches nothing else. Whatever is in flight passes by.
-/
import proofs.«154199_j42442866819345_1_alg».proof.Proof.Body.Base

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

set_option maxHeartbeats 1000000 in
/-- From the two input blocks and the running sum `a0`, the body leaves the running sum at `a0` plus the blocks' product. -/
theorem runMid (c : Dev nD) (i : grid0.Coords) (arg2 : Memref sig .tc .vmem S256x256 .bf16) (harg2 : arg2.IsWhole) (arg3 : Memref sig .tc .vmem S256x8192 .bf16) (harg3 : arg3.IsWhole) (arg5 : Memref sig .tc .vmem S256x1000 .f32) (harg5 : arg5.IsWhole) (arg6 : Memref sig .tc .vmem S256x8192 .f32) (harg6 : arg6.IsWhole) (arg7 : Memref sig .tc .vmem S256x8192 .f32) (harg7 : arg7.IsWhole) (arg8 : Memref sig .tc .vmem S8192x1000 .bf16) (harg8 : arg8.IsWhole)
    (hc0 : ¬condFirst i) (hc1 : ¬condLast i) (x0 : Vec F S256x256 .bf16) (p0 : Vec F S256x8192 .bf16) (a0 : Vec F S256x8192 .f32)
    (K : PUnit → sProp 𝕄) :
    iprop(owns (c : Thread nD τ) arg2 fullShare x0 ∗ owns (c : Thread nD τ) arg3 fullShare p0 ∗ owns (c : Thread nD τ) arg7 fullShare a0
        ∗ (iprop(owns (c : Thread nD τ) arg2 fullShare x0 ∗ owns (c : Thread nD τ) arg3 fullShare p0 ∗ owns (c : Thread nD τ) arg7 fullShare (k0_pay2 a0 x0 p0)) -∗ K ⟨⟩))
      ⊢ wp frame (wpE (defs₀ (F := F)) Variants.none c none) Set.univ (cc0__hdc_kernel i arg2 harg2 arg3 harg3 hbmM (Memref.isWhole_whole _) arg5 harg5 arg6 harg6 arg7 harg7 arg8 harg8 cc0_scratch2) K := by
  simp only [cc0__hdc_kernel_eq_skeleton]; unfold cc0__hdc_kernel_skel
  unfold owns
  iintro ⟨⟨%f0, %hf0, H0⟩, ⟨%f1, %hf1, H1⟩, ⟨%f7, %hf7, H7⟩, Hk⟩
  obtain rfl := harg2.eq_unread hf0
  obtain rfl := harg3.eq_unread hf1
  obtain rfl := harg7.eq_unread hf7
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  iexists _; isplitr; swap; · iexact H7
  ipureintro
  rw [View.read_writes_eq_canon _ _ _ (fun y => ⟨_, List.mem_singleton_self _, View.mem_set_unit_zero hz2 Facts₀.inb_S256x8192_S256x8192_0_0 y⟩), View.canon_unit_zero hz2]
  simp only [View.readAt_eq_ld, harg2.read_unread, harg3.read_unread, harg7.read_unread, View.ld_unit_zero (S := S256x8192) hz2, View.ld_unit_zero (S := S256x256) hz2]

end Cert.KernelIdeal.Body

end
-- ==== Proof.Body.StepFirst.lean ====
/-
  The first step of a row tile: the body clears the running sum, starts the copy of the class matrix into its
  on-chip buffer — not waited for here — and adds the first product. It hands back the running sum at the first
  product over zero, and the transfer in flight in the cell's place.
-/
import proofs.«154199_j42442866819345_1_alg».proof.Proof.Body.StepMid

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

set_option maxHeartbeats 1000000 in
theorem runFirst (c : Dev nD) (i : grid0.Coords) (arg2 : Memref sig .tc .vmem S256x256 .bf16) (harg2 : arg2.IsWhole) (arg3 : Memref sig .tc .vmem S256x8192 .bf16) (harg3 : arg3.IsWhole) (arg5 : Memref sig .tc .vmem S256x1000 .f32) (harg5 : arg5.IsWhole) (arg6 : Memref sig .tc .vmem S256x8192 .f32) (harg6 : arg6.IsWhole) (arg7 : Memref sig .tc .vmem S256x8192 .f32) (harg7 : arg7.IsWhole) (arg8 : Memref sig .tc .vmem S8192x1000 .bf16) (harg8 : arg8.IsWhole)
    (hc0 : condFirst i) (hc1 : ¬condLast i) (x0 : Vec F S256x256 .bf16) (p0 : Vec F S256x8192 .bf16) (fh : HbBuf (F := F) c hbmM)
    (K : PUnit → sProp 𝕄) :
    iprop(owns (c : Thread nD τ) arg2 fullShare x0 ∗ owns (c : Thread nD τ) arg3 fullShare p0 ∗ (∃ d, owns (c : Thread nD τ) arg7 fullShare d) ∗ (∃ d, owns (c : Thread nD τ) arg8 fullShare d)
        ∗ semVal ((c : Thread nD τ), SemLoc.dma 8) 0 ∗ hbPt c hbmM fh
        ∗ (iprop(owns (c : Thread nD τ) arg2 fullShare x0 ∗ owns (c : Thread nD τ) arg3 fullShare p0 ∗ owns (c : Thread nD τ) arg7 fullShare (k0_pay2 (k0_pay1 (F := F)) x0 p0)
            ∗ flying c arg8 fh) -∗ K ⟨⟩))
      ⊢ wp frame (wpE (defs₀ (F := F)) Variants.none c none) Set.univ (cc0__hdc_kernel i arg2 harg2 arg3 harg3 hbmM (Memref.isWhole_whole _) arg5 harg5 arg6 harg6 arg7 harg7 arg8 harg8 cc0_scratch2) K := by
  simp only [cc0__hdc_kernel_eq_skeleton]; unfold cc0__hdc_kernel_skel
  unfold owns
  iintro ⟨⟨%f0, %hf0, H0⟩, ⟨%f1, %hf1, H1⟩, ⟨%d7, %f7, -, H7⟩, ⟨%d8, %f8, -, H8⟩, Hq, Hh, Hk⟩
  obtain rfl := harg2.eq_unread hf0
  obtain rfl := harg3.eq_unread hf1
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H7]
  · iexists _; isplitr; swap; · iexact H7
    ipureintro
    rw [View.read_writes_eq_canon _ _ _ (fun y => ⟨_, List.mem_cons_self, View.mem_set_unit_zero hz2 Facts₀.inb_S256x8192_S256x8192_0_0 y⟩), View.canon_cons_unit_zero hz2]
    sl_unfold_run_names
    rw [View.readCov_unit_zero _ hz2]
    simp only [View.readAt_eq_ld, harg2.read_unread, harg3.read_unread, View.ld_unit_zero (S := S256x8192) hz2, View.ld_unit_zero (S := S256x256) hz2]
  unfold flying
  iexists _
  isplitl [Hq]; · iexact Hq
  iexact Hh

end Cert.KernelIdeal.Body

end
-- ==== Proof.Body.StepLast.lean ====
/-
  The last step of a row tile: the body adds the last product to the running sum, waits for the class matrix —
  in flight since the tile's first step —, takes the signs of the finished sum (+1 where it is at least zero,
  -1 elsewhere), stores them as one result block, and stores their product with the delivered matrix as the
  other. The cell comes back at zero and the matrix's array whole.
-/
import proofs.«154199_j42442866819345_1_alg».proof.Proof.Body.StepFirst

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-- A whole-block load of a buffer into which one delivery wrote every element reads the delivery. -/
theorem readCov_whole_unit_zero {Val : EltTy → Type} [∀ e, Nonempty (Val e)] {sig' : RefSig} {κ : Kind} {sp : Space} {S : Shape} {e : EltTy}
    (v : View sig' κ sp S e) {off : Fin S.rank → Nat} (h : off = fun _ => 0)
    (inb : ∀ a, off a + S.size a ≤ S.size a) (w : S.Idx → Val e) :
    v.readCov [(⟨Rect.whole S, w⟩ : View.Piece Val S e)] (Rect.unit off S.size inb).toLoadRect = w := by
  subst h
  exact View.readCov_unit_zero v rfl inb w

set_option maxHeartbeats 2000000 in
theorem runLast (c : Dev nD) (i : grid0.Coords) (arg2 : Memref sig .tc .vmem S256x256 .bf16) (harg2 : arg2.IsWhole) (arg3 : Memref sig .tc .vmem S256x8192 .bf16) (harg3 : arg3.IsWhole) (arg5 : Memref sig .tc .vmem S256x1000 .f32) (harg5 : arg5.IsWhole) (arg6 : Memref sig .tc .vmem S256x8192 .f32) (harg6 : arg6.IsWhole) (arg7 : Memref sig .tc .vmem S256x8192 .f32) (harg7 : arg7.IsWhole) (arg8 : Memref sig .tc .vmem S8192x1000 .bf16) (harg8 : arg8.IsWhole)
    (hc0 : ¬condFirst i) (hc1 : condLast i) (x0 : Vec F S256x256 .bf16) (p0 : Vec F S256x8192 .bf16) (a0 : Vec F S256x8192 .f32) (fh : HbBuf (F := F) c hbmM)
    (W : Waits sig Unit) (K : PUnit → sProp 𝕄) :
    iprop(owns (c : Thread nD τ) arg2 fullShare x0 ∗ owns (c : Thread nD τ) arg3 fullShare p0 ∗ owns (c : Thread nD τ) arg7 fullShare a0
        ∗ (∃ d, owns (c : Thread nD τ) arg5 fullShare d) ∗ (∃ d, owns (c : Thread nD τ) arg6 fullShare d)
        ∗ flying c arg8 fh ∗ owes (c : Thread nD τ) 0 W
        ∗ (iprop(owns (c : Thread nD τ) arg2 fullShare x0 ∗ owns (c : Thread nD τ) arg3 fullShare p0 ∗ owns (c : Thread nD τ) arg7 fullShare (k0_pay2 a0 x0 p0)
            ∗ owns (c : Thread nD τ) arg5 fullShare (k0_pay4 (k0_pay2 a0 x0 p0) (chvOf c fh))
            ∗ owns (c : Thread nD τ) arg6 fullShare (k0_pay3 (k0_pay2 a0 x0 p0))
            ∗ (∃ d, owns (c : Thread nD τ) arg8 fullShare d) ∗ semVal ((c : Thread nD τ), SemLoc.dma 8) 0 ∗ hbPt c hbmM fh
            ∗ (∃ W', owes (c : Thread nD τ) 0 W')) -∗ K ⟨⟩))
      ⊢ wp frame (wpE (defs₀ (F := F)) Variants.none c none) Set.univ (cc0__hdc_kernel i arg2 harg2 arg3 harg3 hbmM (Memref.isWhole_whole _) arg5 harg5 arg6 harg6 arg7 harg7 arg8 harg8 cc0_scratch2) K := by
  simp only [cc0__hdc_kernel_eq_skeleton]; unfold cc0__hdc_kernel_skel
  unfold owns
  unfold flying
  iintro ⟨⟨%f0, %hf0, H0⟩, ⟨%f1, %hf1, H1⟩, ⟨%f7, %hf7, H7⟩, ⟨%d5, %f5, -, H5⟩, ⟨%d6, %f6, -, H6⟩, ⟨%f8, HF, Hh⟩, HW, Hk⟩
  obtain rfl := harg2.eq_unread hf0
  obtain rfl := harg3.eq_unread hf1
  obtain rfl := harg7.eq_unread hf7
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H7]
  · iexists _; isplitr; swap; · iexact H7
    ipureintro
    sl_unfold_run_names
    rw [View.read_writes_eq_canon _ _ _ (fun y => ⟨_, List.mem_singleton_self _, View.mem_set_unit_zero hz2 Facts₀.inb_S256x8192_S256x8192_0_0 y⟩), View.canon_unit_zero hz2]
    simp only [View.readAt_eq_ld, harg2.read_unread, harg3.read_unread, harg7.read_unread, View.ld_unit_zero (S := S256x8192) hz2, View.ld_unit_zero (S := S256x256) hz2]
  isplitl [H5]
  · iexists _; isplitr; swap; · iexact H5
    ipureintro
    rw [View.read_writes_eq_canon _ _ _ (fun y => ⟨_, List.mem_singleton_self _, View.mem_set_unit_zero hz2 Facts₀.inb_S256x1000_S256x1000_0_0 y⟩), View.canon_unit_zero hz2]
    sl_unfold_run_names
    rw [View.readCov_unit_zero _ hz2, readCov_whole_unit_zero _ hz2]
    simp only [View.readAt_eq_ld, harg2.read_unread, harg3.read_unread, harg7.read_unread, View.ld_unit_zero (S := S256x8192) hz2, View.ld_unit_zero (S := S256x256) hz2]
  isplitl [H6]
  · iexists _; isplitr; swap; · iexact H6
    ipureintro
    rw [View.read_writes_eq_canon _ _ _ (fun y => ⟨_, List.mem_singleton_self _, View.mem_set_unit_zero hz2 Facts₀.inb_S256x8192_S256x8192_0_0 y⟩), View.canon_unit_zero hz2]
    sl_unfold_run_names
    rw [View.readCov_unit_zero _ hz2]
    simp only [View.readAt_eq_ld, harg2.read_unread, harg3.read_unread, harg7.read_unread, View.ld_unit_zero (S := S256x8192) hz2, View.ld_unit_zero (S := S256x256) hz2]
  isplitl [HF_dst]
  · iexists _, _; isplitr; swap; · iexact HF_dst
    ipureintro; rfl
  isplitl [HF]; · iexact HF
  isplitl [Hh]; · iexact Hh
  iexists _; iexact HW

end Cert.KernelIdeal.Body

end
-- ==== Proof.Body.Data.lean ====
/-
  The proof data of the region. Along a row tile the running sum after a step is the step's product added to
  the sum before it, the first step starting from zero: `accOut`, by recursion on the point. Between points the
  invariant is: at a point that opens a tile nothing is in flight and the running sum is forgotten; at any other
  point the running sum is the one the point before left and the class matrix is in flight. The two result
  windows are stored at a tile's last step only: the signs of the finished sum, and their product with the
  delivered class matrix.
-/
import proofs.«154199_j42442866819345_1_alg».proof.Proof.Body.StepLast

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## The running sum -/

theorem N_pos : 0 < cfg0.N := by decide

/-- The point numbered `n` (numbers read modulo the grid's size, so that the recursion below is total). -/
def tOf (n : Nat) : Fin cfg0.N := ⟨n % cfg0.N, Nat.mod_lt n N_pos⟩
theorem tOf_val (t : Fin cfg0.N) : tOf t.val = t := Fin.ext (Nat.mod_eq_of_lt t.isLt)

/-- The running sum after point `n`: the point's product added to zero at the first step of a tile, to the
    sum the point before left at the others. -/
def accOut (c : Dev nD) : Nat → Vec F S256x8192 .f32
  | 0 => k0_pay2 (k0_pay1 (F := F)) (iblk m c 0 (tOf 0)) (iblk m c 1 (tOf 0))
  | n + 1 => k0_pay2 (if (n + 1) % 8 = 0 then k0_pay1 (F := F) else accOut c n) (iblk m c 0 (tOf (n + 1))) (iblk m c 1 (tOf (n + 1)))

theorem accOut_first (c : Dev nD) (n : Nat) (h : n % 8 = 0) :
    accOut m c n = k0_pay2 (k0_pay1 (F := F)) (iblk m c 0 (tOf n)) (iblk m c 1 (tOf n)) := by
  cases n with
  | zero => rfl
  | succ k => simp only [accOut, if_pos h]

theorem accOut_next (c : Dev nD) (n : Nat) (h : n % 8 ≠ 0) :
    accOut m c n = k0_pay2 (accOut m c (n - 1)) (iblk m c 0 (tOf n)) (iblk m c 1 (tOf n)) := by
  cases n with
  | zero => exact absurd rfl h
  | succ k => simp only [accOut, if_neg h, Nat.add_sub_cancel]

/-! ## The invariant between points, and the proof data -/

/-- Before point `t` (after point `t - 1`). -/
def PhiAt (c : Dev nD) (t : Fin (cfg0.N + 1)) : sProp 𝕄 :=
  if t.val % 8 = 0 then Pipeline.ΦD osem spec0 H0 (V m) c
  else iprop(owns (c : Thread nD τ) accM fullShare (accOut m c (t.val - 1)) ∗ (∃ r, prngReg c r) ∗ flying c chvM (V m c main_v2))

def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => k0_pay4 (accOut m c t.val) (chvOf c (V m c main_v2))
    | ⟨3, _⟩ => k0_pay3 (accOut m c t.val)
  Φ t := PhiAt m c t
  q _ := fullShare
  owed _ := 0

theorem A_eq (c : Dev nD) (w : Fin cfg0.W) : (dats m 0 c).A w = V m c (Pipeline.arrRef spec0 w) := by
  dsimp only [dats]
theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = k0_pay4 (accOut m c t.val) (chvOf c (V m c main_v2)) := by dsimp only [dats]
theorem after3 (c : Dev nD) (t : Fin cfg0.N) : (dats m 0 c).after 3 t = k0_pay3 (accOut m c t.val) := by dsimp only [dats]

theorem before0 (c : Dev nD) (t : Fin cfg0.N) (d) : (dats m 0 c).before 0 t d = iblk m c 0 t :=
  before0_of m (dats m 0 c) (A_eq m c 0) (after0 m c) t d
theorem before1 (c : Dev nD) (t : Fin cfg0.N) (d) : (dats m 0 c).before 1 t d = iblk m c 1 t :=
  before1_of m (dats m 0 c) (A_eq m c 1) (after1 m c) t d

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d)))

def bodyPost (c : Dev nD) (t : Fin cfg0.N) : sProp 𝕄 :=
  iprop((dats m 0 c).Φ t.succ ∗ (dats m 0 c).owesAt () t.succ
    ∗ (dats m 0 c).leavesExact 0 t ∗ (dats m 0 c).leavesExact 1 t
    ∗ (dats m 0 c).leavesExact 2 t ∗ (dats m 0 c).leavesExact 3 t)

theorem PhiAt_home (c : Dev nD) (t : Fin (cfg0.N + 1)) (h : t.val % 8 = 0) :
    PhiAt m c t = Pipeline.ΦD osem spec0 H0 (V m) c := if_pos h
theorem PhiAt_fly (c : Dev nD) (t : Fin (cfg0.N + 1)) (h : ¬ t.val % 8 = 0) :
    PhiAt m c t = iprop(owns (c : Thread nD τ) accM fullShare (accOut m c (t.val - 1)) ∗ (∃ r, prngReg c r) ∗ flying c chvM (V m c main_v2)) := if_neg h

theorem idle2_at (t : Fin cfg0.N) (h : t.val % 8 = 7) : cfg0.idle 2 (grid0.coords t) = false := by rw [idle2 t]; simp [h]
theorem idle3_at (t : Fin cfg0.N) (h : t.val % 8 = 7) : cfg0.idle 3 (grid0.coords t) = false := by rw [idle3 t]; simp [h]
theorem idle2_off (t : Fin cfg0.N) (h : ¬ t.val % 8 = 7) : cfg0.idle 2 (grid0.coords t) = true := by rw [idle2 t]; simp [h]
theorem idle3_off (t : Fin cfg0.N) (h : ¬ t.val % 8 = 7) : cfg0.idle 3 (grid0.coords t) = true := by rw [idle3 t]; simp [h]
theorem flush2_off (t : Fin cfg0.N) (h : ¬ t.val % 8 = 7) : (cfg0.win 2).flush t = false :=
  Bool.eq_false_iff.mpr fun hf => h ((flush0_2 t).mp hf)
theorem flush3_off (t : Fin cfg0.N) (h : ¬ t.val % 8 = 7) : (cfg0.win 3).flush t = false :=
  Bool.eq_false_iff.mpr fun hf => h ((flush0_3 t).mp hf)

set_option maxHeartbeats 4000000 in
/-- The body at any point, by the point's place in its row tile. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1]
  rw [show (dats m 0 c).leavesExact 0 t = owns (c : Thread nD τ) (ms0 t) fullShare (iblk m c 0 t) from by
        unfold Dat.leavesExact; rw [live0 t, after0],
      show (dats m 0 c).leavesExact 1 t = owns (c : Thread nD τ) (ms1 t) fullShare (iblk m c 1 t) from by
        unfold Dat.leavesExact; rw [live1 t, after1]]
  rw [show (dats m 0 c).Φ t.castSucc = PhiAt m c t.castSucc from rfl, show (dats m 0 c).Φ t.succ = PhiAt m c t.succ from rfl]
  have ec : t.castSucc.val = t.val := rfl
  have es : t.succ.val - 1 = t.val := by rw [Fin.val_succ]; omega
  by_cases h0 : t.val % 8 = 0
  · -- the first step of a tile
    have h7 : ¬ t.val % 8 = 7 := by omega
    have hs : ¬ t.succ.val % 8 = 0 := by rw [Fin.val_succ]; omega
    rw [(dats m 0 c).leavesExact_idle 2 t (idle2_off t h7) (flush2_off t h7), (dats m 0 c).leavesExact_idle 3 t (idle3_off t h7) (flush3_off t h7),
      show (dats m 0 c).owesAt () t.succ = (dats m 0 c).owesAt () t.castSucc from rfl,
      PhiAt_home m c t.castSucc h0, PhiAt_fly m c t.succ hs, PhiD_eq, es, accOut_first m c t.val h0, tOf_val]
    iintro ⟨⟨⟨HS0, HS1⟩, Hg, Hq, Hh⟩, Ho, ⟨%d0, H0⟩, ⟨%d1, H1⟩, H2, H3⟩
    iapply (runFirst c (grid0.coords t) (ms0 t) (hs0 t) (ms1 t) (hs1 t) (ms2 t) (hs2 t) (ms3 t) (hs3 t) accM (Memref.isWhole_whole _) chvM (Memref.isWhole_whole _)
      ((hcondFirst t).mpr h0) (fun h => h7 ((hcondLast t).mp h)) (iblk m c 0 t) (iblk m c 1 t) (V m c main_v2) _)
    isplitl [H0]; · iexact H0
    isplitl [H1]; · iexact H1
    isplitl [HS0]; · iexact HS0
    isplitl [HS1]; · iexact HS1
    isplitl [Hq]; · iexact Hq
    isplitl [Hh]; · iexact Hh
    iintro ⟨H0, H1, HA, HF⟩
    isplitl [HA Hg HF]
    · isplitl [HA]; · iexact HA
      isplitl [Hg]; · iexact Hg
      iexact HF
    isplitl [Ho]; · iexact Ho
    isplitl [H0]; · iexact H0
    isplitl [H1]; · iexact H1
    isplitl [H2]; · iexact H2
    iexact H3
  · by_cases h7 : t.val % 8 = 7
    · -- the last step of a tile
      have hs : t.succ.val % 8 = 0 := by rw [Fin.val_succ]; omega
      rw [show (dats m 0 c).leavesExact 2 t = owns (c : Thread nD τ) (ms2 t) fullShare (k0_pay4 (accOut m c t.val) (chvOf c (V m c main_v2))) from by
            unfold Dat.leavesExact; rw [idle2_at t h7, after2],
          show (dats m 0 c).leavesExact 3 t = owns (c : Thread nD τ) (ms3 t) fullShare (k0_pay3 (accOut m c t.val)) from by
            unfold Dat.leavesExact; rw [idle3_at t h7, after3],
        PhiAt_fly m c t.castSucc h0, PhiAt_home m c t.succ hs, PhiD_eq, ec, accOut_next m c t.val h0, tOf_val]
      unfold Dat.owesAt Pipeline.owesWithin
      rw [show (dats m 0 c).owed t.castSucc = 0 from rfl, show (dats m 0 c).owed t.succ = 0 from rfl]
      iintro ⟨⟨HA, Hg, HF⟩, ⟨%W, -, HW⟩, ⟨%d0, H0⟩, ⟨%d1, H1⟩, ⟨%d2, H2⟩, ⟨%d3, H3⟩⟩
      iapply (runLast c (grid0.coords t) (ms0 t) (hs0 t) (ms1 t) (hs1 t) (ms2 t) (hs2 t) (ms3 t) (hs3 t) accM (Memref.isWhole_whole _) chvM (Memref.isWhole_whole _)
        (fun h => h0 ((hcondFirst t).mp h)) ((hcondLast t).mpr h7) (iblk m c 0 t) (iblk m c 1 t) (accOut m c (t.val - 1)) (V m c main_v2) W _)
      isplitl [H0]; · iexact H0
      isplitl [H1]; · iexact H1
      isplitl [HA]; · iexact HA
      isplitl [H2]; · iexists _; iexact H2
      isplitl [H3]; · iexists _; iexact H3
      isplitl [HF]; · iexact HF
      isplitl [HW]; · iexact HW
      iintro ⟨H0, H1, HA, H2, H3, HS1, Hq, Hh, ⟨%W', HW'⟩⟩
      isplitl [HA HS1 Hg Hq Hh]
      · isplitl [HA HS1]
        · isplitl [HA]; · iexists _; iexact HA
          iexact HS1
        isplitl [Hg]; · iexact Hg
        isplitl [Hq]; · iexact Hq
        iexact Hh
      isplitl [HW']
      · iexists W'; isplitr; · ipureintro; exact fun _ _ => Or.inl trivial
        iexact HW'
      isplitl [H0]; · iexact H0
      isplitl [H1]; · iexact H1
      isplitl [H2]; · iexact H2
      iexact H3
    · -- a middle step
      have hs : ¬ t.succ.val % 8 = 0 := by rw [Fin.val_succ]; omega
      rw [(dats m 0 c).leavesExact_idle 2 t (idle2_off t h7) (flush2_off t h7), (dats m 0 c).leavesExact_idle 3 t (idle3_off t h7) (flush3_off t h7),
        show (dats m 0 c).owesAt () t.succ = (dats m 0 c).owesAt () t.castSucc from rfl,
        PhiAt_fly m c t.castSucc h0, PhiAt_fly m c t.succ hs, es, ec, accOut_next m c t.val h0, tOf_val]
      iintro ⟨⟨HA, Hg, HF⟩, Ho, ⟨%d0, H0⟩, ⟨%d1, H1⟩, H2, H3⟩
      iapply (runMid c (grid0.coords t) (ms0 t) (hs0 t) (ms1 t) (hs1 t) (ms2 t) (hs2 t) (ms3 t) (hs3 t) accM (Memref.isWhole_whole _) chvM (Memref.isWhole_whole _)
        (fun h => h0 ((hcondFirst t).mp h)) (fun h => h7 ((hcondLast t).mp h)) (iblk m c 0 t) (iblk m c 1 t) (accOut m c (t.val - 1)) _)
      isplitl [H0]; · iexact H0
      isplitl [H1]; · iexact H1
      isplitl [HA]; · iexact HA
      iintro ⟨H0, H1, HA⟩
      isplitl [HA Hg HF]
      · isplitl [HA]; · iexact HA
        isplitl [Hg]; · iexact Hg
        iexact HF
      isplitl [Ho]; · iexact Ho
      isplitl [H0]; · iexact H0
      isplitl [H1]; · iexact H1
      isplitl [H2]; · iexact H2
      iexact H3

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- Every weakly fair execution of @main terminates without a fault; each result array ends at what the proof
    data's blocks written back make of it, every other array as the region found it. -/
theorem run_main : θ_run defs (onTc (τ := τ) (main (F := F))) (s₀ m ρ) (Pipeline.FramePost cfgs (dats m) 0 (V m)) :=
  Pipeline.θ_run_frame_dma cfgs (dats m) (0 : Fin 1) launch0 osem defs₀ Variants.none ownSemFacts H0 H0_sub m ρ main
    (hbody := fun c => (body_obligation m c).loose) (hshare := fun c => (dats m 0 c).share_full fun _ => rfl)
    (howed := fun _ _ => rfl) (V := V m) (hmain := hmainD m Variants.none) (hA := A_eq m)
    (hin := fun c => by rw [show (dats m 0 c).Φ 0 = PhiAt m c 0 from rfl, PhiAt_home m c 0 rfl])
    (hout := fun c => by rw [show (dats m 0 c).Φ (Fin.last cfg0.N) = PhiAt m c (Fin.last cfg0.N) from rfl, PhiAt_home m c (Fin.last cfg0.N) (by decide)])

/-- The frame: the run ends, nothing faults, and the three argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_ofD m ρ (dats m) (run_main m ρ)

end Cert.KernelIdeal.Body

end
-- ==== Proof.Value.Dots.lean ====
/-
  The body's arithmetic read at an index, over the extended reals. A step's contribution to the running sum at
  `(r, j)` is the sum over the step's 256 contracted positions of the input block's row `r` against the
  projection block's column `j`; the signs are +1 where the finished sum is at least zero and -1 elsewhere; a
  score is the sum over the 8192 sign positions of a row's signs against a column of the class matrix. The
  change of float format in front of either product is the identity here.
-/
import proofs.«154199_j42442866819345_1_alg».proof.Proof.Body.Data
import Idealize.ShloMosaic.Lib.ValueIdx
import Idealize.ShloMosaic.PureOps.Ideal.Laws

set_option maxRecDepth 16384

noncomputable section

open scoped BigOperators

namespace Cert.KernelIdeal.Tile

open Cert.KernelIdeal Cert.KernelIdeal.Gen Cert.KernelIdeal.Body
open Idealize.ShloMosaic Idealize.ShloMosaic.TcCoe Idealize.ShloMosaic.ValueIdx
open Idealize.SL Idealize.SL.Sem
open Idealize.ShloMosaic.Pipeline (Dat)

/-! ## The two contractions as plain sums -/

theorem proj_lhs0 (y : S256x8192.Idx) (q : dot_S256x256_S256x8192_S256x8192_1_0_0_1_n_n.contr.Idx) : (dot_S256x256_S256x8192_S256x8192_1_0_0_1_n_n.lhsIdx y q 0).val = (y 0).val := by
  unfold DotDims.lhsIdx
  rw [dif_neg (show ¬(0 : Fin S256x256.rank) ∈ dot_S256x256_S256x8192_S256x8192_1_0_0_1_n_n.lhsBatch by decide), dif_pos (show (0 : Fin S256x256.rank) ∈ dot_S256x256_S256x8192_S256x8192_1_0_0_1_n_n.lhsNonContracting by decide)]
  rfl
theorem proj_lhs1 (y : S256x8192.Idx) (q : dot_S256x256_S256x8192_S256x8192_1_0_0_1_n_n.contr.Idx) : (dot_S256x256_S256x8192_S256x8192_1_0_0_1_n_n.lhsIdx y q 1).val = (q ⟨0, by decide⟩).val :=
  dot_S256x256_S256x8192_S256x8192_1_0_0_1_n_n.lhsIdx_val_of_single rfl y q
theorem proj_rhs0 (y : S256x8192.Idx) (q : dot_S256x256_S256x8192_S256x8192_1_0_0_1_n_n.contr.Idx) : (dot_S256x256_S256x8192_S256x8192_1_0_0_1_n_n.rhsIdx y q 0).val = (q ⟨0, by decide⟩).val :=
  dot_S256x256_S256x8192_S256x8192_1_0_0_1_n_n.rhsIdx_val_of_single rfl y q
theorem proj_rhs1 (y : S256x8192.Idx) (q : dot_S256x256_S256x8192_S256x8192_1_0_0_1_n_n.contr.Idx) : (dot_S256x256_S256x8192_S256x8192_1_0_0_1_n_n.rhsIdx y q 1).val = (y 1).val := by
  unfold DotDims.rhsIdx
  rw [dif_neg (show ¬(1 : Fin S256x8192.rank) ∈ dot_S256x256_S256x8192_S256x8192_1_0_0_1_n_n.rhsBatch by decide), dif_pos (show (1 : Fin S256x8192.rank) ∈ dot_S256x256_S256x8192_S256x8192_1_0_0_1_n_n.rhsNonContracting by decide)]
  rfl

/-- Entry `(y 0, y 1)` of the product: the sum over the 256 contracted positions of row `y 0` of the left factor against column `y 1` of the right. -/
theorem proj_sum {φ₁ φ₂ : FTy} (l : FVec Ideal S256x256 φ₁) (r : FVec Ideal S256x8192 φ₂) (y : S256x8192.Idx) :
    ∑ q : dot_S256x256_S256x8192_S256x8192_1_0_0_1_n_n.contr.Idx, l (dot_S256x256_S256x8192_S256x8192_1_0_0_1_n_n.lhsIdx y q) * r (dot_S256x256_S256x8192_S256x8192_1_0_0_1_n_n.rhsIdx y q)
      = ∑ k : Fin 256, l (ix2 (y 0) k) * r (ix2 k (y 1)) := by
  rw [← Equiv.sum_comp (ValueIdx.contrEquiv1 dot_S256x256_S256x8192_S256x8192_1_0_0_1_n_n 256 rfl rfl).symm]
  refine Finset.sum_congr rfl fun k _ => ?_
  have hk := ValueIdx.contrEquiv1_symm_val dot_S256x256_S256x8192_S256x8192_1_0_0_1_n_n 256 rfl rfl k
  have el : dot_S256x256_S256x8192_S256x8192_1_0_0_1_n_n.lhsIdx y ((ValueIdx.contrEquiv1 dot_S256x256_S256x8192_S256x8192_1_0_0_1_n_n 256 rfl rfl).symm k) = ix2 (y 0) k := funext fun a => Fin.ext (by
    match a with
    | ⟨0, _⟩ => exact proj_lhs0 _ _
    | ⟨1, _⟩ => exact (proj_lhs1 _ _).trans hk)
  have er : dot_S256x256_S256x8192_S256x8192_1_0_0_1_n_n.rhsIdx y ((ValueIdx.contrEquiv1 dot_S256x256_S256x8192_S256x8192_1_0_0_1_n_n 256 rfl rfl).symm k) = ix2 k (y 1) := funext fun a => Fin.ext (by
    match a with
    | ⟨0, _⟩ => exact (proj_rhs0 _ _).trans hk
    | ⟨1, _⟩ => exact proj_rhs1 _ _)
  rw [el, er]
  try rfl

theorem score_lhs0 (y : S256x1000.Idx) (q : dot_S256x8192_S8192x1000_S256x1000_1_0_0_1_n_n.contr.Idx) : (dot_S256x8192_S8192x1000_S256x1000_1_0_0_1_n_n.lhsIdx y q 0).val = (y 0).val := by
  unfold DotDims.lhsIdx
  rw [dif_neg (show ¬(0 : Fin S256x8192.rank) ∈ dot_S256x8192_S8192x1000_S256x1000_1_0_0_1_n_n.lhsBatch by decide), dif_pos (show (0 : Fin S256x8192.rank) ∈ dot_S256x8192_S8192x1000_S256x1000_1_0_0_1_n_n.lhsNonContracting by decide)]
  rfl
theorem score_lhs1 (y : S256x1000.Idx) (q : dot_S256x8192_S8192x1000_S256x1000_1_0_0_1_n_n.contr.Idx) : (dot_S256x8192_S8192x1000_S256x1000_1_0_0_1_n_n.lhsIdx y q 1).val = (q ⟨0, by decide⟩).val :=
  dot_S256x8192_S8192x1000_S256x1000_1_0_0_1_n_n.lhsIdx_val_of_single rfl y q
theorem score_rhs0 (y : S256x1000.Idx) (q : dot_S256x8192_S8192x1000_S256x1000_1_0_0_1_n_n.contr.Idx) : (dot_S256x8192_S8192x1000_S256x1000_1_0_0_1_n_n.rhsIdx y q 0).val = (q ⟨0, by decide⟩).val :=
  dot_S256x8192_S8192x1000_S256x1000_1_0_0_1_n_n.rhsIdx_val_of_single rfl y q
theorem score_rhs1 (y : S256x1000.Idx) (q : dot_S256x8192_S8192x1000_S256x1000_1_0_0_1_n_n.contr.Idx) : (dot_S256x8192_S8192x1000_S256x1000_1_0_0_1_n_n.rhsIdx y q 1).val = (y 1).val := by
  unfold DotDims.rhsIdx
  rw [dif_neg (show ¬(1 : Fin S8192x1000.rank) ∈ dot_S256x8192_S8192x1000_S256x1000_1_0_0_1_n_n.rhsBatch by decide), dif_pos (show (1 : Fin S8192x1000.rank) ∈ dot_S256x8192_S8192x1000_S256x1000_1_0_0_1_n_n.rhsNonContracting by decide)]
  rfl

/-- Entry `(y 0, y 1)` of the product: the sum over the 8192 contracted positions of row `y 0` of the left factor against column `y 1` of the right. -/
theorem score_sum {φ₁ φ₂ : FTy} (l : FVec Ideal S256x8192 φ₁) (r : FVec Ideal S8192x1000 φ₂) (y : S256x1000.Idx) :
    ∑ q : dot_S256x8192_S8192x1000_S256x1000_1_0_0_1_n_n.contr.Idx, l (dot_S256x8192_S8192x1000_S256x1000_1_0_0_1_n_n.lhsIdx y q) * r (dot_S256x8192_S8192x1000_S256x1000_1_0_0_1_n_n.rhsIdx y q)
      = ∑ k : Fin 8192, l (ix2 (y 0) k) * r (ix2 k (y 1)) := by
  rw [← Equiv.sum_comp (ValueIdx.contrEquiv1 dot_S256x8192_S8192x1000_S256x1000_1_0_0_1_n_n 8192 rfl rfl).symm]
  refine Finset.sum_congr rfl fun k _ => ?_
  have hk := ValueIdx.contrEquiv1_symm_val dot_S256x8192_S8192x1000_S256x1000_1_0_0_1_n_n 8192 rfl rfl k
  have el : dot_S256x8192_S8192x1000_S256x1000_1_0_0_1_n_n.lhsIdx y ((ValueIdx.contrEquiv1 dot_S256x8192_S8192x1000_S256x1000_1_0_0_1_n_n 8192 rfl rfl).symm k) = ix2 (y 0) k := funext fun a => Fin.ext (by
    match a with
    | ⟨0, _⟩ => exact score_lhs0 _ _
    | ⟨1, _⟩ => exact (score_lhs1 _ _).trans hk)
  have er : dot_S256x8192_S8192x1000_S256x1000_1_0_0_1_n_n.rhsIdx y ((ValueIdx.contrEquiv1 dot_S256x8192_S8192x1000_S256x1000_1_0_0_1_n_n 8192 rfl rfl).symm k) = ix2 k (y 1) := funext fun a => Fin.ext (by
    match a with
    | ⟨0, _⟩ => exact (score_rhs0 _ _).trans hk
    | ⟨1, _⟩ => exact score_rhs1 _ _)
  rw [el, er]
  try rfl

/-! ## The payloads at an index -/

/-- The cleared running sum is zero everywhere. -/
theorem pay1_apply (y : S256x8192.Idx) : k0_pay1 (F := Ideal) y = (0 : EReal) := by
  unfold k0_pay1
  rw [shapeCast_self]
  exact Ideal.ofBits_zero_f32

/-- A step adds to the running sum, entry by entry, the product of the two input blocks. -/
theorem pay2_apply (a : Vec Ideal S256x8192 .f32) (x : Vec Ideal S256x256 .bf16) (p : Vec Ideal S256x8192 .bf16) (y : S256x8192.Idx) :
    k0_pay2 a x p y = a y + ∑ k : Fin 256, x (ix2 (y 0) k) * p (ix2 k (y 1)) := by
  unfold k0_pay2
  rw [shapeCast_self, shapeCast_self, shapeCast_self]
  rw [addf_apply]
  simp only [matmul]
  rw [Ideal.matmul_constant_zero_apply, proj_sum]

/-- The signs of a finished sum. -/
theorem pay3_apply (a : Vec Ideal S256x8192 .f32) (y : S256x8192.Idx) :
    k0_pay3 a y = Scalar.select (FloatOps.cmpf .oge (a y) (FloatOps.ofBits .f32 0x00000000#32 : Ideal .f32))
      (FloatOps.ofBits .f32 0x3F800000#32 : Ideal .f32) (FloatOps.ofBits .f32 0xBF800000#32 : Ideal .f32) := rfl

/-- A score: a row of signs against a column of the class matrix. -/
theorem pay4_apply (a : Vec Ideal S256x8192 .f32) (ch : Vec Ideal S8192x1000 .bf16) (y : S256x1000.Idx) :
    k0_pay4 a ch y = ∑ k : Fin 8192, k0_pay3 a (ix2 (y 0) k) * ch (ix2 k (y 1)) := by
  unfold k0_pay4
  simp only [matmul]
  rw [Ideal.matmul_constant_zero_apply, score_sum]
  rfl

end Cert.KernelIdeal.Tile

end
-- ==== Proof.Value.Blocks.lean ====
/-
  Where a point's blocks sit in the arrays. Point `t` is step `t % 8` of row tile `t / 8`: its input block is
  rows `256·(t/8) …` and columns `256·(t%8) …` of the input, its projection block is rows `256·(t%8) …` of the
  projection (all 8192 columns), and both result blocks are rows `256·(t/8) …` of their arrays. The host lines
  before the region only change the float format of the three arguments, which is the identity over the
  extended reals: the region finds the arguments themselves.
-/
import proofs.«154199_j42442866819345_1_alg».proof.Proof.Value.Dots
import Idealize.ShloMosaic.Lib.StableHlo.Run

set_option maxRecDepth 16384

noncomputable section

open scoped BigOperators

namespace Cert.KernelIdeal.Tile

open Cert.KernelIdeal Cert.KernelIdeal.Gen Cert.KernelIdeal.Body
open Idealize.ShloMosaic Idealize.ShloMosaic.TcCoe Idealize.ShloMosaic.ValueIdx
open Idealize.SL Idealize.SL.Sem
open Idealize.ShloMosaic.Pipeline (Dat)

open Idealize.ShloMosaic.StableHlo

variable (m : (ℓ : Loc nD τ sig) → Buf (Elt Ideal) ℓ)

/-! ## The three arguments, as functions of an index into the extended reals -/

abbrev argX (c : Dev nD) : S16384x2048.Idx → EReal := m ((c : Thread nD τ).loc main_arg0)
abbrev argP (c : Dev nD) : S2048x8192.Idx → EReal := m ((c : Thread nD τ).loc main_arg1)
abbrev argC (c : Dev nD) : S8192x1000.Idx → EReal := m ((c : Thread nD τ).loc main_arg2)

/-! ## The arrays as the region finds them -/

theorem V_x (c : Dev nD) : (V m c main_v0 : S16384x2048.Idx → Elt Ideal .bf16) = argX m c := by
  dsimp only [Gen.V, Gen.hostOps0]; after_results; rfl
theorem V_p (c : Dev nD) : (V m c main_v1 : S2048x8192.Idx → Elt Ideal .bf16) = argP m c := by
  dsimp only [Gen.V, Gen.hostOps0]; after_results; rfl
theorem V_c (c : Dev nD) : (V m c main_v2 : S8192x1000.Idx → Elt Ideal .bf16) = argC m c := by
  dsimp only [Gen.V, Gen.hostOps0]; after_results; rfl

/-! ## The index maps over the grid -/

theorem idx_facts : ∀ t : Fin cfg0.N,
    win0_0.index t (0 : Fin 2) = t.val / 8 ∧ win0_0.index t (1 : Fin 2) = t.val % 8
    ∧ win0_1.index t (0 : Fin 2) = t.val % 8 ∧ win0_1.index t (1 : Fin 2) = 0
    ∧ win0_2.index t (0 : Fin 2) = t.val / 8 ∧ win0_2.index t (1 : Fin 2) = 0
    ∧ win0_3.index t (0 : Fin 2) = t.val / 8 ∧ win0_3.index t (1 : Fin 2) = 0 :=
  (by decide +kernel : ∀ t : Fin grid0.N, _)

theorem t_lt (t : Fin cfg0.N) : t.val < 512 := lt_of_lt_of_eq t.isLt N_0

/-! ## The input blocks at an index -/

/-- The two input blocks of point `t`, as vectors of their literal shapes. -/
def xb (c : Dev nD) (t : Fin cfg0.N) : Vec Ideal S256x256 .bf16 := iblk m c 0 t
def pb (c : Dev nD) (t : Fin cfg0.N) : Vec Ideal S256x8192 .bf16 := iblk m c 1 t

theorem xb_apply (c : Dev nD) (t : Fin cfg0.N) (r k : Fin 256)
    (h0 : 256 * (t.val / 8) + r.val < 16384) (h1 : 256 * (t.val % 8) + k.val < 2048) :
    xb m c t (ix2 r k) = argX m c (ix2 ⟨256 * (t.val / 8) + r.val, h0⟩ ⟨256 * (t.val % 8) + k.val, h1⟩) := by
  obtain ⟨e0, e1, -⟩ := idx_facts t
  show V m c main_v0 (((cfg0.win 0).blk t).view.emb (ix2 r k)) = _
  rw [V_x]
  refine congrArg (argX m c) (funext fun a => Fin.ext ?_)
  match a with
  | ⟨0, _⟩ => show win0_0.index t (0 : Fin 2) * 256 + 1 * r.val = 256 * (t.val / 8) + r.val; rw [e0]; omega
  | ⟨1, _⟩ => show win0_0.index t (1 : Fin 2) * 256 + 1 * k.val = 256 * (t.val % 8) + k.val; rw [e1]; omega

theorem pb_apply (c : Dev nD) (t : Fin cfg0.N) (k : Fin 256) (j : Fin 8192)
    (h0 : 256 * (t.val % 8) + k.val < 2048) :
    pb m c t (ix2 k j) = argP m c (ix2 ⟨256 * (t.val % 8) + k.val, h0⟩ j) := by
  obtain ⟨-, -, e0, e1, -⟩ := idx_facts t
  show V m c main_v1 (((cfg0.win 1).blk t).view.emb (ix2 k j)) = _
  rw [V_p]
  refine congrArg (argP m c) (funext fun a => Fin.ext ?_)
  match a with
  | ⟨0, _⟩ => show win0_1.index t (0 : Fin 2) * 256 + 1 * k.val = 256 * (t.val % 8) + k.val; rw [e0]; omega
  | ⟨1, _⟩ => show win0_1.index t (1 : Fin 2) * 8192 + 1 * j.val = j.val; rw [e1]; omega

end Cert.KernelIdeal.Tile

end
-- ==== Proof.Value.RowSum.lean ====
/-
  The running sum of a row tile is the row's projection, built 256 contracted positions at a time. After step
  `s` of tile `b`, entry `(r, j)` of the running sum is the sum over the first `256·(s+1)` contracted positions
  `K` of input entry `(256·b + r, K)` times projection entry `(K, j)`: the first step adds its 256 terms to zero,
  each later step adds its 256 terms to what the step before left. After the last step that is the whole sum
  over the 2048 positions. Only that addition in the extended reals is associative and that zero is neutral is
  used; nothing here needs the entries to be finite.
-/
import proofs.«154199_j42442866819345_1_alg».proof.Proof.Value.Blocks

set_option maxRecDepth 16384

noncomputable section

open scoped BigOperators

namespace Cert.KernelIdeal.Tile

open Cert.KernelIdeal Cert.KernelIdeal.Gen Cert.KernelIdeal.Body
open Idealize.ShloMosaic Idealize.ShloMosaic.TcCoe Idealize.ShloMosaic.ValueIdx
open Idealize.SL Idealize.SL.Sem
open Idealize.ShloMosaic.Pipeline (Dat)

variable (m : (ℓ : Loc nD τ sig) → Buf (Elt Ideal) ℓ)

/-- The sum over the first `w·(k+1)` naturals is the sum over the first `w·k` plus the sum over the next `w`. -/
theorem sum_range_block {M : Type} [AddCommMonoid M] (f : ℕ → M) (w k : ℕ) :
    ∑ K ∈ Finset.range (w * (k + 1)), f K = ∑ K ∈ Finset.range (w * k), f K + ∑ kk : Fin w, f (w * k + kk.val) := by
  rw [Nat.mul_succ, Finset.sum_range_add]
  congr 1
  exact Finset.sum_range (fun x => f (w * k + x))

/-- One term of a row's projection: input entry `(row, K)` times projection entry `(K, j)` (zero outside the arrays). -/
def term (c : Dev nD) (row j K : ℕ) : EReal :=
  if h : row < 16384 ∧ K < 2048 ∧ j < 8192 then
    argX m c (ix2 ⟨row, h.1⟩ ⟨K, h.2.1⟩) * argP m c (ix2 ⟨K, h.2.1⟩ ⟨j, h.2.2⟩)
  else 0

/-- A step's contribution: its 256 terms. -/
theorem step_sum (c : Dev nD) (t : Fin cfg0.N) (r : Fin 256) (j : Fin 8192) :
    ∑ k : Fin 256, (xb m c t (ix2 r k) : EReal) * (pb m c t (ix2 k j) : EReal)
      = ∑ k : Fin 256, term m c (256 * (t.val / 8) + r.val) j.val (256 * (t.val % 8) + k.val) := by
  have ht := t_lt t
  refine Finset.sum_congr rfl fun k _ => ?_
  have h0 : 256 * (t.val / 8) + r.val < 16384 := by have := r.isLt; omega
  have h1 : 256 * (t.val % 8) + k.val < 2048 := by have := k.isLt; omega
  rw [xb_apply m c t r k h0 h1, pb_apply m c t k j h1]
  unfold term
  rw [dif_pos ⟨h0, h1, j.isLt⟩]

/-- The running sum after point `n`. -/
theorem acc_apply (c : Dev nD) (r : Fin 256) (j : Fin 8192) : ∀ n, n < 512 →
    accOut m c n (ix2 r j) = ∑ K ∈ Finset.range (256 * (n % 8 + 1)), term m c (256 * (n / 8) + r.val) j.val K := by
  intro n
  induction n using Nat.strong_induction_on with
  | _ n ih =>
    intro hn
    have hN : n < cfg0.N := lt_of_lt_of_eq hn N_0.symm
    have htv : (tOf n).val = n := Nat.mod_eq_of_lt hN
    have hstep := step_sum m c (tOf n) r j
    rw [htv] at hstep
    by_cases h0 : n % 8 = 0
    · rw [accOut_first m c n h0]
      show k0_pay2 (k0_pay1 (F := Ideal)) (xb m c (tOf n)) (pb m c (tOf n)) (ix2 r j) = _
      rw [pay2_apply, pay1_apply, zero_add]
      show ∑ k : Fin 256, (xb m c (tOf n) (ix2 r k) : EReal) * (pb m c (tOf n) (ix2 k j) : EReal) = _
      rw [hstep, h0]
      simp only [Nat.mul_zero, Nat.zero_add, Nat.mul_one]
      exact (Finset.sum_range _).symm
    · rw [accOut_next m c n h0]
      show k0_pay2 (accOut m c (n - 1)) (xb m c (tOf n)) (pb m c (tOf n)) (ix2 r j) = _
      rw [pay2_apply]
      show accOut m c (n - 1) (ix2 r j) + ∑ k : Fin 256, (xb m c (tOf n) (ix2 r k) : EReal) * (pb m c (tOf n) (ix2 k j) : EReal) = _
      rw [ih (n - 1) (by omega) (by omega), hstep]
      have e1 : (n - 1) % 8 + 1 = n % 8 := by omega
      have e2 : (n - 1) / 8 = n / 8 := by omega
      rw [e1, e2]
      exact (sum_range_block _ 256 (n % 8)).symm

/-- After a tile's last step: the row's whole projection. -/
theorem acc_last (c : Dev nD) (t : Fin cfg0.N) (h7 : t.val % 8 = 7) (r : Fin 256) (j : Fin 8192)
    (hrow : 256 * (t.val / 8) + r.val < 16384) :
    accOut m c t.val (ix2 r j)
      = ∑ K : Fin 2048, argX m c (ix2 ⟨256 * (t.val / 8) + r.val, hrow⟩ K) * argP m c (ix2 K j) := by
  rw [acc_apply m c r j t.val (t_lt t), h7, show 256 * (7 + 1) = 2048 from rfl, Finset.sum_range]
  refine Finset.sum_congr rfl fun K _ => ?_
  unfold term
  rw [dif_pos ⟨hrow, K.isLt, j.isLt⟩]

end Cert.KernelIdeal.Tile

end
-- ==== Proof.Value.Arrays.lean ====
/-
  From blocks to arrays. The sign array the kernel writes, row tile by row tile, is the array of signs of the
  whole projection: entry `(p, q)` is +1 where the sum over the 2048 contracted positions of input row `p` against
  projection column `q` is at least zero, -1 elsewhere. The score array is the product of that sign array with the
  class matrix. Both are stated as the reference's own two results read as functions of the three arguments, so
  that the two programs' posts carry one term. The 64 row tiles cover all 16384 rows, and a tile's result blocks
  are written back exactly at its last step, where the running sum is the whole projection.
-/
import proofs.«154199_j42442866819345_1_alg».proof.Proof.Value.RowSum
import proofs.«154199_j42442866819345_1_alg».proof.Proof.Gen.ReferenceIdeal.Read

set_option maxRecDepth 16384

noncomputable section

open scoped BigOperators

namespace Cert.KernelIdeal.Tile

open Cert.KernelIdeal Cert.KernelIdeal.Gen Cert.KernelIdeal.Body
open Idealize.ShloMosaic Idealize.ShloMosaic.TcCoe Idealize.ShloMosaic.ValueIdx
open Idealize.SL Idealize.SL.Sem
open Idealize.ShloMosaic.Pipeline (Dat)

variable (m : (ℓ : Loc nD τ sig) → Buf (Elt Ideal) ℓ) (ρ : Dev nD → PrngReg)

/-! ## The two results as functions of the arguments -/

/-- The signs of the projection, and the scores: the reference's two stages at the kernel's arguments. -/
def signsOf (c : Dev nD) : S16384x8192.Idx → EReal :=
  Cert.ReferenceIdeal.Read.val_main_v4 (F := Ideal) (argX m c) (argP m c)
def scoresOf (c : Dev nD) : S16384x1000.Idx → EReal :=
  Cert.ReferenceIdeal.Read.val_main_v5 (F := Ideal) (argX m c) (argP m c) (argC m c)

theorem signs_apply (c : Dev nD) (p : Fin 16384) (q : Fin 8192) :
    signsOf m c (ix2 p q) = Scalar.select (FloatOps.cmpf .oge (∑ K : Fin 2048, argX m c (ix2 p K) * argP m c (ix2 K q) : Ideal .f32) (FloatOps.ofBits .f32 0x00000000#32 : Ideal .f32))
      (FloatOps.ofBits .f32 0x3F800000#32 : Ideal .f32) (FloatOps.ofBits .f32 0xBF800000#32 : Ideal .f32) := by
  have el : ∀ K : Fin 2048, Cert.ReferenceIdeal.Read.lidx_main_v0 (ix2 p q) K = ix2 p K := fun K => funext fun a => Fin.ext (by
    match a with | ⟨0, _⟩ => rfl | ⟨1, _⟩ => rfl)
  have er : ∀ K : Fin 2048, Cert.ReferenceIdeal.Read.ridx_main_v0 (ix2 p q) K = ix2 K q := fun K => funext fun a => Fin.ext (by
    match a with | ⟨0, _⟩ => rfl | ⟨1, _⟩ => rfl)
  unfold signsOf
  rw [Cert.ReferenceIdeal.Read.val_main_v4_apply, Cert.ReferenceIdeal.Read.val_main_v3_apply, Cert.ReferenceIdeal.Read.val_main_v2_apply, Cert.ReferenceIdeal.Read.val_main_v0_apply, Cert.ReferenceIdeal.Read.val_main_v1_apply,
    Cert.ReferenceIdeal.Read.val_main_cst_apply, Cert.ReferenceIdeal.Read.val_main_call0_v0_apply, Cert.ReferenceIdeal.Read.val_main_cst_0_apply, Cert.ReferenceIdeal.Read.val_main_call0_v1_apply, Cert.ReferenceIdeal.Read.val_main_cst_1_apply]
  simp only [el, er]

theorem scores_apply (c : Dev nD) (p : Fin 16384) (q : Fin 1000) :
    scoresOf m c (ix2 p q) = ∑ k : Fin 8192, signsOf m c (ix2 p k) * argC m c (ix2 k q) := by
  have el : ∀ k : Fin 8192, Cert.ReferenceIdeal.Read.lidx_main_v5 (ix2 p q) k = ix2 p k := fun k => funext fun a => Fin.ext (by
    match a with | ⟨0, _⟩ => rfl | ⟨1, _⟩ => rfl)
  have er : ∀ k : Fin 8192, Cert.ReferenceIdeal.Read.ridx_main_v5 (ix2 p q) k = ix2 k q := fun k => funext fun a => Fin.ext (by
    match a with | ⟨0, _⟩ => rfl | ⟨1, _⟩ => rfl)
  unfold scoresOf
  rw [Cert.ReferenceIdeal.Read.val_main_v5_apply]
  simp only [el, er]
  rfl

/-! ## A tile's result blocks at its last step -/

/-- The signs the last step stores are the signs of the whole projection at the tile's rows. -/
theorem signs_blk (c : Dev nD) (t : Fin cfg0.N) (h7 : t.val % 8 = 7) (r : Fin 256) (j : Fin 8192)
    (hrow : 256 * (t.val / 8) + r.val < 16384) :
    k0_pay3 (accOut m c t.val) (ix2 r j) = signsOf m c (ix2 ⟨256 * (t.val / 8) + r.val, hrow⟩ j) := by
  rw [signs_apply, pay3_apply, acc_last m c t h7 r j hrow]

theorem flushed3_eq (c : Dev nD) (t : Fin cfg0.N) (hf : (cfg0.win 3).flush t = true) :
    (dats m 0 c).flushed 3 t = ((cfg0.win 3).blk t).view.read (Elt Ideal) (signsOf m c) := by
  have h7 : t.val % 8 = 7 := (flush0_3 t).mp hf
  have ht := t_lt t
  obtain ⟨-, -, -, -, -, -, e0, e1⟩ := idx_facts t
  show (cfg0.win 3).cut (grid0.coords t) ((dats m 0 c).after 3 t) = _
  rw [after3]
  refine funext fun (y : S256x8192.Idx) => ?_
  obtain ⟨r, j, rfl⟩ : ∃ (r : Fin 256) (j : Fin 8192), y = ix2 r j := ⟨y 0, y 1, eq_ix2 y⟩
  have hrow : 256 * (t.val / 8) + r.val < 16384 := by have := r.isLt; omega
  have hemb : ((cfg0.win 3).blk t).view.emb (ix2 r j) = ix2 ⟨256 * (t.val / 8) + r.val, hrow⟩ j := funext fun a => Fin.ext (by
    match a with
    | ⟨0, _⟩ => show win0_3.index t (0 : Fin 2) * 256 + 1 * r.val = 256 * (t.val / 8) + r.val; rw [e0]; omega
    | ⟨1, _⟩ => show win0_3.index t (1 : Fin 2) * 8192 + 1 * j.val = j.val; rw [e1]; omega)
  show k0_pay3 (accOut m c t.val) (ix2 r j) = signsOf m c (((cfg0.win 3).blk t).view.emb (ix2 r j))
  rw [hemb, signs_blk m c t h7 r j hrow]

theorem flushed2_eq (c : Dev nD) (t : Fin cfg0.N) (hf : (cfg0.win 2).flush t = true) :
    (dats m 0 c).flushed 2 t = ((cfg0.win 2).blk t).view.read (Elt Ideal) (scoresOf m c) := by
  have h7 : t.val % 8 = 7 := (flush0_2 t).mp hf
  have ht := t_lt t
  obtain ⟨-, -, -, -, e0, e1, -⟩ := idx_facts t
  show (cfg0.win 2).cut (grid0.coords t) ((dats m 0 c).after 2 t) = _
  rw [after2]
  refine funext fun (y : S256x1000.Idx) => ?_
  obtain ⟨r, q, rfl⟩ : ∃ (r : Fin 256) (q : Fin 1000), y = ix2 r q := ⟨y 0, y 1, eq_ix2 y⟩
  have hrow : 256 * (t.val / 8) + r.val < 16384 := by have := r.isLt; omega
  have hemb : ((cfg0.win 2).blk t).view.emb (ix2 r q) = ix2 ⟨256 * (t.val / 8) + r.val, hrow⟩ q := funext fun a => Fin.ext (by
    match a with
    | ⟨0, _⟩ => show win0_2.index t (0 : Fin 2) * 256 + 1 * r.val = 256 * (t.val / 8) + r.val; rw [e0]; omega
    | ⟨1, _⟩ => show win0_2.index t (1 : Fin 2) * 1000 + 1 * q.val = q.val; rw [e1]; omega)
  show k0_pay4 (accOut m c t.val) (chvOf c (V m c main_v2)) (ix2 r q) = scoresOf m c (((cfg0.win 2).blk t).view.emb (ix2 r q))
  rw [hemb, scores_apply, pay4_apply]
  refine Finset.sum_congr rfl fun k _ => ?_
  show k0_pay3 (accOut m c t.val) (ix2 r k) * (V m c main_v2 : S8192x1000.Idx → Elt Ideal .bf16) (ix2 k q) = _
  rw [signs_blk m c t h7 r k hrow, V_c]

/-! ## The row tiles cover the arrays -/

theorem mem_blk3 (t : Fin cfg0.N) (i : S16384x8192.Idx) :
    i ∈ ((cfg0.win 3).blk t).view.set ↔ ∀ a : Fin 2, win0_3.index t a * S256x8192.size a ≤ (i a).val ∧ (i a).val < win0_3.index t a * S256x8192.size a + S256x8192.size a := by
  show i ∈ ((View.whole main_v3_1).slice (win0_3.rect t)).set ↔ _
  rw [View.set_slice_whole, Rect.mem_set_unit]
  exact Iff.rfl
theorem mem_blk2 (t : Fin cfg0.N) (i : S16384x1000.Idx) :
    i ∈ ((cfg0.win 2).blk t).view.set ↔ ∀ a : Fin 2, win0_2.index t a * S256x1000.size a ≤ (i a).val ∧ (i a).val < win0_2.index t a * S256x1000.size a + S256x1000.size a := by
  show i ∈ ((View.whole main_v3_0).slice (win0_2.rect t)).set ↔ _
  rw [View.set_slice_whole, Rect.mem_set_unit]
  exact Iff.rfl

/-- Row `p` lies in tile `p / 256`, whose blocks are written back at its last step, point `8·(p/256) + 7`. -/
def lastOf (p : ℕ) (hp : p < 16384) : Fin cfg0.N := ⟨8 * (p / 256) + 7, lt_of_lt_of_eq (by omega : 8 * (p / 256) + 7 < 512) N_0.symm⟩

theorem cover3 (i : S16384x8192.Idx) : ∃ t : Fin cfg0.N, (cfg0.win 3).flush t = true ∧ i ∈ ((cfg0.win 3).blk t).view.set := by
  have hi0 : (i 0).val < 16384 := (i 0).isLt
  have hi1 : (i 1).val < 8192 := (i 1).isLt
  obtain ⟨-, -, -, -, -, -, e0, e1⟩ := idx_facts (lastOf (i 0).val hi0)
  have tv : (lastOf (i 0).val hi0).val = 8 * ((i 0).val / 256) + 7 := rfl
  refine ⟨lastOf (i 0).val hi0, (flush0_3 _).mpr (by rw [tv]; omega), ?_⟩
  rw [mem_blk3]
  intro a
  match a with
  | ⟨0, _⟩ => show win0_3.index (lastOf (i 0).val hi0) (0 : Fin 2) * 256 ≤ (i 0).val ∧ (i 0).val < win0_3.index (lastOf (i 0).val hi0) (0 : Fin 2) * 256 + 256; rw [e0, tv]; omega
  | ⟨1, _⟩ => show win0_3.index (lastOf (i 0).val hi0) (1 : Fin 2) * 8192 ≤ (i 1).val ∧ (i 1).val < win0_3.index (lastOf (i 0).val hi0) (1 : Fin 2) * 8192 + 8192; rw [e1]; omega

theorem cover2 (i : S16384x1000.Idx) : ∃ t : Fin cfg0.N, (cfg0.win 2).flush t = true ∧ i ∈ ((cfg0.win 2).blk t).view.set := by
  have hi0 : (i 0).val < 16384 := (i 0).isLt
  have hi1 : (i 1).val < 1000 := (i 1).isLt
  obtain ⟨-, -, -, -, e0, e1, -⟩ := idx_facts (lastOf (i 0).val hi0)
  have tv : (lastOf (i 0).val hi0).val = 8 * ((i 0).val / 256) + 7 := rfl
  refine ⟨lastOf (i 0).val hi0, (flush0_2 _).mpr (by rw [tv]; omega), ?_⟩
  rw [mem_blk2]
  intro a
  match a with
  | ⟨0, _⟩ => show win0_2.index (lastOf (i 0).val hi0) (0 : Fin 2) * 256 ≤ (i 0).val ∧ (i 0).val < win0_2.index (lastOf (i 0).val hi0) (0 : Fin 2) * 256 + 256; rw [e0, tv]; omega
  | ⟨1, _⟩ => show win0_2.index (lastOf (i 0).val hi0) (1 : Fin 2) * 1000 ≤ (i 1).val ∧ (i 1).val < win0_2.index (lastOf (i 0).val hi0) (1 : Fin 2) * 1000 + 1000; rw [e1]; omega

/-! ## The arrays after the run, and the run re-posted -/

theorem final3 (c : Dev nD) : (dats m 0 c).arrAt 3 cfg0.N = signsOf m c :=
  (dats m 0 c).arrAt_eq_of_cover 3 (signsOf m c) (fun t hf => flushed3_eq m c t hf) cover3
theorem final2 (c : Dev nD) : (dats m 0 c).arrAt 2 cfg0.N = scoresOf m c :=
  (dats m 0 c).arrAt_eq_of_cover 2 (scoresOf m c) (fun t hf => flushed2_eq m c t hf) cover2

/-- The kernel's run: both results at their functions of the arguments, the arguments unchanged. -/
theorem run : θ_run defs (onTc (τ := τ) (main (F := Ideal))) ⟨m, fun _ => 0, ρ⟩ fun r => ∀ c : Dev nD,
      r.2.mem ((c.tc : Thread nD τ).loc main_v3_0) = scoresOf m c
      ∧ r.2.mem ((c.tc : Thread nD τ).loc main_v3_1) = signsOf m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun r h c => ⟨((h c).1 2).trans (final2 m c), ((h c).1 3).trans (final3 m c),
      ((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c)⟩)
    (run_main m ρ)

end Cert.KernelIdeal.Tile

end
-- ==== Proof.lean ====
/-
  The kernel: for each of 64 tiles of 256 input rows, eight steps along the 2048 contracted positions add the
  product of an input block and a projection block to a running sum held on chip; at a tile's first step the
  kernel starts copying the class matrix into an on-chip buffer and at its last step it waits for that copy,
  takes the signs of the finished sum (+1 where it is at least zero, -1 elsewhere), writes them out, and writes
  out their product with the class matrix. The reference computes the whole projection, its signs, and their
  product with the class matrix in three host operations.

  The frames of the two kernel programs (Proof/BodyW, Proof/Body): the region's invariant between points is,
  at a point that opens a tile, both scratch buffers at anything and the transfer's cell at zero; at every other
  point the running sum at the value the point before left and the class matrix in flight — the cell's place
  taken by the transfer's invariant. The body is run once per kind of step (first, middle, last).

  The values over the extended reals (Proof/Value): the running sum after a tile's last step is the whole sum
  over the 2048 positions — addition is associative and zero is neutral, nothing else is used, and the inputs'
  finiteness is never opened; the changes of float format are the identity there. So the kernel's two result
  arrays are the reference's two results as functions of the arguments, tile by tile, and the 64 tiles cover
  every row. The ideal pass rewrote nothing, so there is nothing to preserve.
-/
import proofs.«154199_j42442866819345_1_alg».proof.Defs
import proofs.«154199_j42442866819345_1_alg».proof.Proof.Gen.Kernel
import proofs.«154199_j42442866819345_1_alg».proof.Proof.Gen.KernelIdeal
import proofs.«154199_j42442866819345_1_alg».proof.Proof.Gen.ReferenceIdeal
import proofs.«154199_j42442866819345_1_alg».proof.Proof.Gen.Pre_finite_inputs
import proofs.«154199_j42442866819345_1_alg».proof.Proof.BodyW.Data
import proofs.«154199_j42442866819345_1_alg».proof.Proof.Value.Arrays
import Idealize.ShloMosaic.Adequacy
import Idealize.ShloMosaic.Init

noncomputable section

namespace Cert.Proof

open Idealize.ShloMosaic Idealize.SL.Sem

/-- The reference's frame: its run, the two results dropped. -/
theorem frame_ref : Cert.frame_ReferenceIdeal (hReferenceIdeal := Cert.ReferenceIdeal.Gen.facts) (hPre_finite_inputs := Cert.Pre_finite_inputs.Gen.facts) := fun m ρ _ =>
  (θ_run Cert.ReferenceIdeal.defs _ _).mono (fun _ h c => (h c).2.2) (Cert.ReferenceIdeal.Value.run (F := Ideal) m ρ)

/-- From arguments that agree, both programs end with the signs of the projection and with the scores: the
    kernel by its run read tile by tile, the reference by its run, whose two terms are those functions. -/
theorem algebraic : Cert.algebraic_KernelIdeal_ReferenceIdeal (hKernelIdeal := Cert.KernelIdeal.Gen.facts) (hReferenceIdeal := Cert.ReferenceIdeal.Gen.facts) (hPre_finite_inputs := Cert.Pre_finite_inputs.Gen.facts) := by
  intro m ρ m' ρ' _ hagree
  refine ⟨fun c => Cert.KernelIdeal.Tile.scoresOf m c, fun c => Cert.KernelIdeal.Tile.signsOf m c, Cert.KernelIdeal.Tile.run m ρ, ?_⟩
  refine (θ_run Cert.ReferenceIdeal.defs _ _).mono (fun _ h c => ⟨?_, ?_, (h c).2.2⟩) (Cert.ReferenceIdeal.Value.run (F := Ideal) m' ρ')
  · rw [(h c).1, (hagree c).1, (hagree c).2.1, (hagree c).2.2]; rfl
  · rw [(h c).2.1, (hagree c).1, (hagree c).2.1]; rfl

theorem claim : Cert.Claim := ⟨Cert.Kernel.Gen.facts, Cert.KernelIdeal.Gen.facts, Cert.ReferenceIdeal.Gen.facts, Cert.Pre_finite_inputs.Gen.facts,
  fun m ρ _ => Cert.Kernel.Body.frame m ρ,
  fun m ρ _ => Cert.KernelIdeal.Body.frame m ρ,
  frame_ref,
  trivial,
  algebraic⟩

end Cert.Proof

end
